-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x500x512 : Shape := ⟨3, ![256, 500, 512]⟩
abbrev S128x512 : Shape := ⟨2, ![128, 512]⟩
abbrev S128 : Shape := ⟨1, ![128]⟩
abbrev S1x128 : Shape := ⟨2, ![1, 128]⟩
abbrev S1 : Shape := ⟨1, ![1]⟩
abbrev S2x512 : Shape := ⟨2, ![2, 512]⟩
abbrev S2 : Shape := ⟨1, ![2]⟩
abbrev S_ : Shape := ⟨0, ![]⟩

class Facts : Prop where
  bcast_S_S256x500x512 : S_.BroadcastsInDim S256x500x512 (![] : Fin 0 → Fin S256x500x512.rank)
  reducesTo_S256x500x512_S_d0_1_2 : S256x500x512.ReducesTo [0, 1, 2] S_
  h_S_ : 0 < S_.numel
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S2x512 : S_.BroadcastsInDim S2x512 (![] : Fin 0 → Fin S2x512.rank)
  reducesTo_S2x512_S_d0_1 : S2x512.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S2x512 .f32) (main_arg8 : FVec F S2 .f32) (main_v33 : IVec S_ 1) : IVec S_ 1 :=
  let main_v34 : FVec F S2x512 .f32 := Host.absf main_arg7
  let main_cst_12 : FVec F S_ .f32 := constant S_ .f32 0x7F800000#32
  let main_v35 : FVec F S2x512 .f32 := broadcastInDim S2x512 ![] bcast_S_S2x512 main_cst_12
  let main_v36 : IVec S2x512 1 := cmpf .olt main_v34 main_v35
  let main_c_13 : IVec S_ 1 := constantI S_ 1 1#1
  let main_v37 : IVec S_ 1 := (fun x v => Host.reduce IntOp.andi x v reducesTo_S2x512_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg4 : FVec F S128 .f32) (main_arg5 : FVec F S1x128 .f32) (main_arg6 : FVec F S1 .f32) (main_arg7 : FVec F S2x512 .f32) (main_arg8 : FVec F S2 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S1x128 .f32 := Host.absf main_arg5
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_v33

def fn {F : FTy → Type} [FloatOps F] (main_arg0 : FVec F S256x500x512 .f32) (main_arg1 : FVec F S128x512 .f32) (main_arg2 : FVec F S128 .f32) (main_arg3 : FVec F S128x512 .f32) (main_arg4 : FVec F S128 .f32) (main_arg5 : FVec F S1x128 .f32) (main_arg6 : FVec F S1 .f32) (main_arg7 : FVec F S2x512 .f32) (main_arg8 : FVec F S2 .f32) : IVec S_ 1 :=
  let main_v0 : FVec F S256x500x512 .f32 := Host.absf main_arg0
  let main_cst : FVec F S_ .f32 := constant S_ .f32 0x7F800000#32
  let main_v1 : FVec F S256x500x512 .f32 := broadcastInDim S256x500x512 ![] bcast_S_S256x500x512 main_cst
  let main_v2 : IVec S256x500x512 1 := cmpf .olt main_v0 main_v1
  let main_c : IVec S_ 1 := constantI S_ 1 1#1
  let main_v3 : IVec S_ 1 := (fun x v => Host.reduce IntOp.andi x v reducesTo_S256x500x512_S_d0_1_2 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg4 main_arg5 main_arg6 main_arg7 main_arg8 main_v13 main_v16
-- ==== Kernel.lean ====
abbrev S256x500x512 : Shape := ⟨3, ![256, 500, 512]⟩
abbrev S128x512 : Shape := ⟨2, ![128, 512]⟩
abbrev S128 : Shape := ⟨1, ![128]⟩
abbrev S1x128 : Shape := ⟨2, ![1, 128]⟩
abbrev S1 : Shape := ⟨1, ![1]⟩
abbrev S2x512 : Shape := ⟨2, ![2, 512]⟩
abbrev S2 : Shape := ⟨1, ![2]⟩
abbrev S1x1 : Shape := ⟨2, ![1, 1]⟩
abbrev S1x2 : Shape := ⟨2, ![1, 2]⟩
abbrev S256x1x2 : Shape := ⟨3, ![256, 1, 2]⟩
abbrev S256x1x500 : Shape := ⟨3, ![256, 1, 500]⟩
abbrev S8x500x512 : Shape := ⟨3, ![8, 500, 512]⟩
abbrev S8x1x2 : Shape := ⟨3, ![8, 1, 2]⟩
abbrev S8x1x500 : Shape := ⟨3, ![8, 1, 500]⟩
abbrev S1x500x512 : Shape := ⟨3, ![1, 500, 512]⟩
abbrev S500x512 : Shape := ⟨2, ![500, 512]⟩
abbrev S512x128 : Shape := ⟨2, ![512, 128]⟩
abbrev S500x128 : Shape := ⟨2, ![500, 128]⟩
abbrev S128x1 : Shape := ⟨2, ![128, 1]⟩
abbrev S500x1 : Shape := ⟨2, ![500, 1]⟩
abbrev S1x500 : Shape := ⟨2, ![1, 500]⟩
abbrev S1x512 : Shape := ⟨2, ![1, 512]⟩
abbrev S512x2 : Shape := ⟨2, ![512, 2]⟩
abbrev S1x1x2 : Shape := ⟨3, ![1, 1, 2]⟩
abbrev S1x1x500 : Shape := ⟨3, ![1, 1, 500]⟩
abbrev S256x2 : Shape := ⟨2, ![256, 2]⟩
abbrev S256x500 : Shape := ⟨2, ![256, 500]⟩

abbrev nBuf : Space → Nat
  | .hbm => 18
  | .vmem => 16
  | .smem => 0
  | _ => 0

abbrev bufTy : (tb : Table) → Fin (tcTables nBuf tb) → BufTy
  | .hbm, ⟨0, _⟩ => ⟨S256x500x512, .f32⟩
  | .hbm, ⟨1, _⟩ => ⟨S128x512, .f32⟩
  | .hbm, ⟨2, _⟩ => ⟨S128, .f32⟩
  | .hbm, ⟨3, _⟩ => ⟨S128x512, .f32⟩
  | .hbm, ⟨4, _⟩ => ⟨S128, .f32⟩
  | .hbm, ⟨5, _⟩ => ⟨S1x128, .f32⟩
  | .hbm, ⟨6, _⟩ => ⟨S1, .f32⟩
  | .hbm, ⟨7, _⟩ => ⟨S2x512, .f32⟩
  | .hbm, ⟨8, _⟩ => ⟨S2, .f32⟩
  | .hbm, ⟨9, _⟩ => ⟨S1x128, .f32⟩
  | .hbm, ⟨10, _⟩ => ⟨S1x128, .f32⟩
  | .hbm, ⟨11, _⟩ => ⟨S1x1, .f32⟩
  | .hbm, ⟨12, _⟩ => ⟨S1x2, .f32⟩
  | .hbm, ⟨13, _⟩ => ⟨S256x1x2, .f32⟩
  | .hbm, ⟨14, _⟩ => ⟨S256x1x500, .f32⟩
  | .hbm, ⟨15, _⟩ => ⟨S256x1x500, .f32⟩
  | .hbm, ⟨16, _⟩ => ⟨S256x2, .f32⟩
  | .hbm, ⟨17, _⟩ => ⟨S256x500, .f32⟩
  | .local _ .vmem, ⟨0, _⟩ => ⟨S8x500x512, .f32⟩
  | .local _ .vmem, ⟨1, _⟩ => ⟨S8x500x512, .f32⟩
  | .local _ .vmem, ⟨2, _⟩ => ⟨S128x512, .f32⟩
  | .local _ .vmem, ⟨3, _⟩ => ⟨S1x128, .f32⟩
  | .local _ .vmem, ⟨4, _⟩ => ⟨S128x512, .f32⟩
  | .local _ .vmem, ⟨5, _⟩ => ⟨S1x128, .f32⟩
  | .local _ .vmem, ⟨6, _⟩ => ⟨S1x128, .f32⟩
  | .local _ .vmem, ⟨7, _⟩ => ⟨S1x1, .f32⟩
  | .local _ .vmem, ⟨8, _⟩ => ⟨S2x512, .f32⟩
  | .local _ .vmem, ⟨9, _⟩ => ⟨S1x2, .f32⟩
  | .local _ .vmem, ⟨10, _⟩ => ⟨S8x1x2, .f32⟩
  | .local _ .vmem, ⟨11, _⟩ => ⟨S8x1x2, .f32⟩
  | .local _ .vmem, ⟨12, _⟩ => ⟨S8x1x500, .f32⟩
  | .local _ .vmem, ⟨13, _⟩ => ⟨S8x1x500, .f32⟩
  | .local _ .vmem, ⟨14, _⟩ => ⟨S8x1x500, .f32⟩
  | .local _ .vmem, ⟨15, _⟩ => ⟨S8x1x500, .f32⟩
  | _, _ => ⟨S256x500x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v16 : BitVec 32 := Scalar.addi c0_i32 c8_i32
  let c1_i32 : BitVec 32 := 1#32
  ⟨c0_i32, v16, c1_i32⟩
def k0_off1 (k0_t1 : Fin k0_t1_loop.trips) : Fin 3 → Nat :=
  let c0_i32 : BitVec 32 := 0#32
  let c1_i32 : BitVec 32 := 1#32
  let arg13 : BitVec 32 := Scf.iv c0_i32 c1_i32 k0_t1
  let v17 : Index := Scalar.indexCast arg13
  let c0_16 : Index := 0#32
  let c0_17 : Index := 0#32
  ![v17.toNat, 0, 0]
def k0_off2 (k0_t1 : Fin k0_t1_loop.trips) : Fin 3 → Nat :=
  let c0_i32 : BitVec 32 := 0#32
  let c1_i32 : BitVec 32 := 1#32
  let arg13 : BitVec 32 := Scf.iv c0_i32 c1_i32 k0_t1
  let v57 : Index := Scalar.indexCast arg13
  let c0_25 : Index := 0#32
  let c0_26 : Index := 0#32
  ![v57.toNat, 0, 0]
def k0_off3 (k0_t1 : Fin k0_t1_loop.trips) : Fin 3 → Nat :=
  let c0_i32 : BitVec 32 := 0#32
  let c1_i32 : BitVec 32 := 1#32
  let arg13 : BitVec 32 := Scf.iv c0_i32 c1_i32 k0_t1
  let v61 : Index := Scalar.indexCast arg13
  let c0_27 : Index := 0#32
  let c0_28 : Index := 0#32
  ![v61.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x500x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x1x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x1x500 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x1x500 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S128_S1x128 : S128.ShapeCasts S1x128
  shapeCasts_S1_S1x1 : S1.ShapeCasts S1x1
  shapeCasts_S2_S1x2 : S2.ShapeCasts S1x2
  inb_S128x512_S128x512_0_0 : ∀ a, (![0, 0] : Fin 2 → Nat) a + S128x512.size a ≤ S128x512.size a
  h_S128x512 : 0 < S128x512.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2x512_S2x512_0_0 : ∀ a, (![0, 0] : Fin 2 → Nat) a + S2x512.size a ≤ S2x512.size a
  h_S2x512 : 0 < S2x512.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  h_S1x500x512 : 0 < S1x500x512.numel
  shapeCasts_S1x500x512_S500x512 : S1x500x512.ShapeCasts S500x512
  transposes_S128x512_p1_0_S512x128 : S128x512.Transposes [1, 0] S512x128
  broadcasts_S1x128_S500x128 : S1x128.Broadcasts S500x128
  transposes_S1x128_p1_0_S128x1 : S1x128.Transposes [1, 0] S128x1
  broadcasts_S1x1_S500x1 : S1x1.Broadcasts S500x1
  transposes_S500x1_p1_0_S1x500 : S500x1.Transposes [1, 0] S1x500
  reduces_S1x500_S1 : S1x500.Reduces [1] S1
  broadcasts_S1x1_S1x500 : S1x1.Broadcasts S1x500
  transposes_S2x512_p1_0_S512x2 : S2x512.Transposes [1, 0] S512x2
  broadcasts_S1x1_S1x2 : S1x1.Broadcasts S1x2
  h_S1x1x2 : 0 < S1x1x2.numel
  shapeCasts_S1x1x2_S1x2 : S1x1x2.ShapeCasts S1x2
  shapeCasts_S1x2_S1x1x2 : S1x2.ShapeCasts S1x1x2
  h_S1x1x500 : 0 < S1x1x500.numel
  shapeCasts_S1x1x500_S1x500 : S1x1x500.ShapeCasts S1x500
  shapeCasts_S1x500_S1x1x500 : S1x500.ShapeCasts S1x1x500
  shapeCasts_S256x1x2_S256x2 : S256x1x2.ShapeCasts S256x2
  shapeCasts_S256x1x500_S256x500 : S256x1x500.ShapeCasts S256x500
  dot_S500x512_S512x128_S500x128_1_0_0_1_n_n_wf : DotDims.WF S500x512 S512x128 S500x128 [1] [0] [0] [1] [] []
  dot_S500x128_S128x1_S500x1_1_0_0_1_n_n_wf : DotDims.WF S500x128 S128x1 S500x1 [1] [0] [0] [1] [] []
  dot_S1x500_S500x512_S1x512_1_0_0_1_n_n_wf : DotDims.WF S1x500 S500x512 S1x512 [1] [0] [0] [1] [] []
  dot_S1x512_S512x2_S1x2_1_0_0_1_n_n_wf : DotDims.WF S1x512 S512x2 S1x2 [1] [0] [0] [1] [] []
  hrank0 : 0 < grid0.rank
  k0_t1_ok : k0_t1_loop.OK
  k0_off1_inb : ∀ k0_t1 : Fin k0_t1_loop.trips, ∀ a, (k0_off1 k0_t1) a + S1x500x512.size a ≤ S8x500x512.size a
  k0_off2_inb : ∀ k0_t1 : Fin k0_t1_loop.trips, ∀ a, (k0_off2 k0_t1) a + S1x1x2.size a ≤ S8x1x2.size a
  k0_off3_inb : ∀ k0_t1 : Fin k0_t1_loop.trips, ∀ a, (k0_off3 k0_t1) a + S1x1x500.size a ≤ S8x1x500.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x500x512.size a ≤ S256x500x512.size a
  hwx0_0 : ∀ i : grid0.Coords, EltTy.bits .f32 = 32 ∨ (Rect.block (s := S256x500x512) S8x500x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x512.size a ≤ S2x512.size a
  hwx0_7 : ∀ i : grid0.Coords, EltTy.bits .f32 = 32 ∨ (Rect.block (s := S2x512) S2x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2.size a ≤ S1x2.size a
  hwx0_8 : ∀ i : grid0.Coords, EltTy.bits .f32 = 32 ∨ (Rect.block (s := S1x2) S1x2.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x1x2.size a ≤ S256x1x2.size a
  hwx0_9 : ∀ i : grid0.Coords, EltTy.bits .f32 = 32 ∨ (Rect.block (s := S256x1x2) S8x1x2.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x1x500.size a ≤ S256x1x500.size a
  hwx0_10 : ∀ i : grid0.Coords, EltTy.bits .f32 = 32 ∨ (Rect.block (s := S256x1x500) S8x1x500.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8x1x500.size a ≤ S256x1x500.size a
  hwx0_11 : ∀ i : grid0.Coords, EltTy.bits .f32 = 32 ∨ (Rect.block (s := S256x1x500) S8x1x500.size (cc0_transform_11 i) (hinb0_11 i)).WholeWords (EltTy.packing .f32)

variable [Facts₀]

def dot_S500x512_S512x128_S500x128_1_0_0_1_n_n : DotDims S500x512 S512x128 S500x128 where
  lhsContracting := [1]
  rhsContracting := [0]
  lhsNonContracting := [0]
  rhsNonContracting := [1]
  lhsBatch := []
  rhsBatch := []
  wf := dot_S500x512_S512x128_S500x128_1_0_0_1_n_n_wf
def dot_S500x128_S128x1_S500x1_1_0_0_1_n_n : DotDims S500x128 S128x1 S500x1 where
  lhsContracting := [1]
  rhsContracting := [0]
  lhsNonContracting := [0]
  rhsNonContracting := [1]
  lhsBatch := []
  rhsBatch := []
  wf := dot_S500x128_S128x1_S500x1_1_0_0_1_n_n_wf
def dot_S1x500_S500x512_S1x512_1_0_0_1_n_n : DotDims S1x500 S500x512 S1x512 where
  lhsContracting := [1]
  rhsContracting := [0]
  lhsNonContracting := [0]
  rhsNonContracting := [1]
  lhsBatch := []
  rhsBatch := []
  wf := dot_S1x500_S500x512_S1x512_1_0_0_1_n_n_wf
def dot_S1x512_S512x2_S1x2_1_0_0_1_n_n : DotDims S1x512 S512x2 S1x2 where
  lhsContracting := [1]
  rhsContracting := [0]
  lhsNonContracting := [0]
  rhsNonContracting := [1]
  lhsBatch := []
  rhsBatch := []
  wf := dot_S1x512_S512x2_S1x2_1_0_0_1_n_n_wf

abbrev win0_0 : Pipeline.Window sig grid0 :=
  Pipeline.Window.ofSpec (Memref.whole main_arg0) S8x500x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4_0) S8x1x2.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_1) S8x1x500.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_2) S8x1x500.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S256x500x512 : Shape := ⟨3, ![256, 500, 512]⟩
abbrev S128x512 : Shape := ⟨2, ![128, 512]⟩
abbrev S128 : Shape := ⟨1, ![128]⟩
abbrev S1x128 : Shape := ⟨2, ![1, 128]⟩
abbrev S1 : Shape := ⟨1, ![1]⟩
abbrev S2x512 : Shape := ⟨2, ![2, 512]⟩
abbrev S2 : Shape := ⟨1, ![2]⟩
abbrev S256x500x128 : Shape := ⟨3, ![256, 500, 128]⟩
abbrev S1x1x128 : Shape := ⟨3, ![1, 1, 128]⟩
abbrev S_ : Shape := ⟨0, ![]⟩
abbrev S256x500x1 : Shape := ⟨3, ![256, 500, 1]⟩
abbrev S1x1x1 : Shape := ⟨3, ![1, 1, 1]⟩
abbrev S256x1x500 : Shape := ⟨3, ![256, 1, 500]⟩
abbrev S256x1 : Shape := ⟨2, ![256, 1]⟩
abbrev S256x1x1 : Shape := ⟨3, ![256, 1, 1]⟩
abbrev S256x1x512 : Shape := ⟨3, ![256, 1, 512]⟩
abbrev S256x512 : Shape := ⟨2, ![256, 512]⟩
abbrev S256 : Shape := ⟨1, ![256]⟩
abbrev S512x2 : Shape := ⟨2, ![512, 2]⟩
abbrev S256x2 : Shape := ⟨2, ![256, 2]⟩
abbrev S1x2 : Shape := ⟨2, ![1, 2]⟩
abbrev S256x500 : Shape := ⟨2, ![256, 500]⟩

abbrev nBuf : Space → Nat
  | .hbm => 59
  | .vmem => 0
  | .smem => 0
  | _ => 0

abbrev bufTy : (tb : Table) → Fin (tcTables nBuf tb) → BufTy
  | .hbm, ⟨0, _⟩ => ⟨S256x500x512, .f32⟩
  | .hbm, ⟨1, _⟩ => ⟨S128x512, .f32⟩
  | .hbm, ⟨2, _⟩ => ⟨S128, .f32⟩
  | .hbm, ⟨3, _⟩ => ⟨S128x512, .f32⟩
  | .hbm, ⟨4, _⟩ => ⟨S128, .f32⟩
  | .hbm, ⟨5, _⟩ => ⟨S1x128, .f32⟩
  | .hbm, ⟨6, _⟩ => ⟨S1, .f32⟩
  | .hbm, ⟨7, _⟩ => ⟨S2x512, .f32⟩
  | .hbm, ⟨8, _⟩ => ⟨S2, .f32⟩
  | .hbm, ⟨9, _⟩ => ⟨S256x500x128, .f32⟩
  | .hbm, ⟨10, _⟩ => ⟨S1x1x128, .f32⟩
  | .hbm, ⟨11, _⟩ => ⟨S256x500x128, .f32⟩
  | .hbm, ⟨12, _⟩ => ⟨S256x500x128, .f32⟩
  | .hbm, ⟨13, _⟩ => ⟨S256x500x128, .f32⟩
  | .hbm, ⟨14, _⟩ => ⟨S256x500x128, .f32⟩
  | .hbm, ⟨15, _⟩ => ⟨S1x1x128, .f32⟩
  | .hbm, ⟨16, _⟩ => ⟨S256x500x128, .f32⟩
  | .hbm, ⟨17, _⟩ => ⟨S256x500x128, .f32⟩
  | .hbm, ⟨18, _⟩ => ⟨S256x500x128, .f32⟩
  | .hbm, ⟨19, _⟩ => ⟨S256x500x128, .f32⟩
  | .hbm, ⟨20, _⟩ => ⟨S_, .f32⟩
  | .hbm, ⟨21, _⟩ => ⟨S256x500x128, .f32⟩
  | .hbm, ⟨22, _⟩ => ⟨S256x500x128, .f32⟩
  | .hbm, ⟨23, _⟩ => ⟨S_, .f32⟩
  | .hbm, ⟨24, _⟩ => ⟨S256x500x128, .f32⟩
  | .hbm, ⟨25, _⟩ => ⟨S256x500x128, .f32⟩
  | .hbm, ⟨26, _⟩ => ⟨S256x500x128, .f32⟩
  | .hbm, ⟨27, _⟩ => ⟨S256x500x1, .f32⟩
  | .hbm, ⟨28, _⟩ => ⟨S1x1x1, .f32⟩
  | .hbm, ⟨29, _⟩ => ⟨S256x500x1, .f32⟩
  | .hbm, ⟨30, _⟩ => ⟨S256x500x1, .f32⟩
  | .hbm, ⟨31, _⟩ => ⟨S256x1x500, .f32⟩
  | .hbm, ⟨32, _⟩ => ⟨S_, .f32⟩
  | .hbm, ⟨33, _⟩ => ⟨S256x1, .f32⟩
  | .hbm, ⟨34, _⟩ => ⟨S_, .f32⟩
  | .hbm, ⟨35, _⟩ => ⟨S256x1, .f32⟩
  | .hbm, ⟨36, _⟩ => ⟨S256x1, .f32⟩
  | .hbm, ⟨37, _⟩ => ⟨S256x1x1, .f32⟩
  | .hbm, ⟨38, _⟩ => ⟨S256x1x500, .f32⟩
  | .hbm, ⟨39, _⟩ => ⟨S256x1x500, .f32⟩
  | .hbm, ⟨40, _⟩ => ⟨S256x1x500, .f32⟩
  | .hbm, ⟨41, _⟩ => ⟨S_, .f32⟩
  | .hbm, ⟨42, _⟩ => ⟨S256x1, .f32⟩
  | .hbm, ⟨43, _⟩ => ⟨S256x1x1, .f32⟩
  | .hbm, ⟨44, _⟩ => ⟨S256x1x500, .f32⟩
  | .hbm, ⟨45, _⟩ => ⟨S256x1x500, .f32⟩
  | .hbm, ⟨46, _⟩ => ⟨S256x1x512, .f32⟩
  | .hbm, ⟨47, _⟩ => ⟨S256x512, .f32⟩
  | .hbm, ⟨48, _⟩ => ⟨S_, .f32⟩
  | .hbm, ⟨49, _⟩ => ⟨S256, .f32⟩
  | .hbm, ⟨50, _⟩ => ⟨S512x2, .f32⟩
  | .hbm, ⟨51, _⟩ => ⟨S256x2, .f32⟩
  | .hbm, ⟨52, _⟩ => ⟨S1x2, .f32⟩
  | .hbm, ⟨53, _⟩ => ⟨S256x1, .f32⟩
  | .hbm, ⟨54, _⟩ => ⟨S256x2, .f32⟩
  | .hbm, ⟨55, _⟩ => ⟨S256x2, .f32⟩
  | .hbm, ⟨56, _⟩ => ⟨S256x2, .f32⟩
  | .hbm, ⟨57, _⟩ => ⟨S256x2, .f32⟩
  | .hbm, ⟨58, _⟩ => ⟨S256x500, .f32⟩
  | _, _ => ⟨S256x500x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S256x500x128_0_1_2 : S1x1x128.BroadcastsInDim S256x500x128 (![0, 1, 2] : Fin 3 → Fin S256x500x128.rank)
  bcast_S_S256x500x128 : S_.BroadcastsInDim S256x500x128 (![] : Fin 0 → Fin S256x500x128.rank)
  bcast_S1_S1x1x1_2 : S1.BroadcastsInDim S1x1x1 (![2] : Fin 1 → Fin S1x1x1.rank)
  bcast_S1x1x1_S256x500x1_0_1_2 : S1x1x1.BroadcastsInDim S256x500x1 (![0, 1, 2] : Fin 3 → Fin S256x500x1.rank)
  transposes_S256x500x1_S256x1x500_0_2_1 : S256x500x1.Transposes [0, 2, 1] S256x1x500
  reducesTo_S256x1x500_S256x1_d2 : S256x1x500.ReducesTo [2] S256x1
  h_S_ : 0 < S_.numel
  bcast_S_S256x1 : S_.BroadcastsInDim S256x1 (![] : Fin 0 → Fin S256x1.rank)
  bcast_S256x1_S256x1x1_0_1 : S256x1.BroadcastsInDim S256x1x1 (![0, 1] : Fin 2 → Fin S256x1x1.rank)
  bcast_S256x1x1_S256x1x500_0_1_2 : S256x1x1.BroadcastsInDim S256x1x500 (![0, 1, 2] : Fin 3 → Fin S256x1x500.rank)
  shapeCasts_S256x1x512_S256x512 : S256x1x512.ShapeCasts S256x512
  reducesTo_S256x1x500_S256_d1_2 : S256x1x500.ReducesTo [1, 2] S256
  transposes_S2x512_S512x2_1_0 : S2x512.Transposes [1, 0] S512x2
  bcast_S2_S1x2_1 : S2.BroadcastsInDim S1x2 (![1] : Fin 1 → Fin S1x2.rank)
  bcast_S256_S256x1_0 : S256.BroadcastsInDim S256x1 (![0] : Fin 1 → Fin S256x1.rank)
  bcast_S1x2_S256x2_0_1 : S1x2.BroadcastsInDim S256x2 (![0, 1] : Fin 2 → Fin S256x2.rank)
  bcast_S256x1_S256x2_0_1 : S256x1.BroadcastsInDim S256x2 (![0, 1] : Fin 2 → Fin S256x2.rank)
  shapeCasts_S256x1x500_S256x500 : S256x1x500.ShapeCasts S256x500
  dot_S256x500x512_S128x512_S256x500x128_2_1_01_0_n_n_wf : DotDims.WF S256x500x512 S128x512 S256x500x128 [2] [1] [0, 1] [0] [] []
  dot_S256x500x128_S1x128_S256x500x1_2_1_01_0_n_n_wf : DotDims.WF S256x500x128 S1x128 S256x500x1 [2] [1] [0, 1] [0] [] []
  dot_S256x1x500_S256x500x512_S256x1x512_2_1_1_2_0_0_wf : DotDims.WF S256x1x500 S256x500x512 S256x1x512 [2] [1] [1] [2] [0] [0]
  dot_S256x512_S512x2_S256x2_1_0_0_1_n_n_wf : DotDims.WF S256x512 S512x2 S256x2 [1] [0] [0] [1] [] []

variable [Facts₀]

def dot_S256x500x512_S128x512_S256x500x128_2_1_01_0_n_n : DotDims S256x500x512 S128x512 S256x500x128 where
  lhsContracting := [2]
  rhsContracting := [1]
  lhsNonContracting := [0, 1]
  rhsNonContracting := [0]
  lhsBatch := []
  rhsBatch := []
  wf := dot_S256x500x512_S128x512_S256x500x128_2_1_01_0_n_n_wf
def dot_S256x500x128_S1x128_S256x500x1_2_1_01_0_n_n : DotDims S256x500x128 S1x128 S256x500x1 where
  lhsContracting := [2]
  rhsContracting := [1]
  lhsNonContracting := [0, 1]
  rhsNonContracting := [0]
  lhsBatch := []
  rhsBatch := []
  wf := dot_S256x500x128_S1x128_S256x500x1_2_1_01_0_n_n_wf
def dot_S256x1x500_S256x500x512_S256x1x512_2_1_1_2_0_0 : DotDims S256x1x500 S256x500x512 S256x1x512 where
  lhsContracting := [2]
  rhsContracting := [1]
  lhsNonContracting := [1]
  rhsNonContracting := [2]
  lhsBatch := [0]
  rhsBatch := [0]
  wf := dot_S256x1x500_S256x500x512_S256x1x512_2_1_1_2_0_0_wf
def dot_S256x512_S512x2_S256x2_1_0_0_1_n_n : DotDims S256x512 S512x2 S256x2 where
  lhsContracting := [1]
  rhsContracting := [0]
  lhsNonContracting := [0]
  rhsNonContracting := [1]
  lhsBatch := []
  rhsBatch := []
  wf := dot_S256x512_S512x2_S256x2_1_0_0_1_n_n_wf

class Facts : Prop extends Facts₀ where

variable [Facts]
-- ==== Proof.Spec.lean ====
/-
  Gated-attention pooling of one bag, as scalar functions of the bag's tiles and the weights.

  A bag is 500 tiles of 512 features, `h t m`. Two projections of a tile to 128 gate channels,
  one through tanh and one through the logistic function, are multiplied channel by channel
  (`gate`); a third projection of the gated channels gives the tile's score (`score`). The scores
  of a bag are turned into weights by the softmax taken with the row's maximum subtracted first
  (`peak`, `weight`). The class logits of the bag are the weighted sum of its tiles projected to
  the two classes, plus the class bias times the sum of the weights (`logit`).

  Everything is over the extended reals and is stated with the same grouping of sums and the
  same order of factors that both programs use, so no algebraic law is needed to meet them.
-/
import Idealize.ShloMosaic.PureOps.Ideal
import Idealize.ShloMosaic.Lib.ValueIdx

noncomputable section

namespace Cert.GatedPool

open Idealize.ShloMosaic

/-- Channel `l` of tile `t`: tanh of one affine projection of the tile times the logistic
    function of another. -/
def gate (h : Fin 500 → Fin 512 → EReal) (wv : Fin 128 → Fin 512 → EReal) (bv : Fin 128 → EReal)
    (wu : Fin 128 → Fin 512 → EReal) (bu : Fin 128 → EReal) (t : Fin 500) (l : Fin 128) : EReal :=
  Ideal.tanh ((∑ m : Fin 512, h t m * wv l m) + bv l)
    * Ideal.logistic ((∑ m : Fin 512, h t m * wu l m) + bu l)

/-- The attention score of tile `t`: an affine projection of its gated channels. -/
def score (h : Fin 500 → Fin 512 → EReal) (wv : Fin 128 → Fin 512 → EReal) (bv : Fin 128 → EReal)
    (wu : Fin 128 → Fin 512 → EReal) (bu : Fin 128 → EReal) (ww : Fin 128 → EReal) (bw : EReal)
    (t : Fin 500) : EReal :=
  (∑ l : Fin 128, gate h wv bv wu bu t l * ww l) + bw

/-- The largest of a bag's scores, folded from the value the f32 word of −∞ denotes. -/
def peak (s : Fin 500 → EReal) : EReal :=
  (Finset.univ : Finset (Fin 500)).fold max (Ideal.ofBits .f32 0xFF800000#32) s

/-- The softmax weight of tile `t`, with the peak subtracted before exponentiating. -/
def weight (s : Fin 500 → EReal) (t : Fin 500) : EReal :=
  Ideal.div (Ideal.exp (s t - peak s)) (∑ k : Fin 500, Ideal.exp (s k - peak s))

/-- Class `c`'s logit of a bag with tile weights `a`: the weighted sum of the tiles, projected
    to the class, plus the class bias times the total weight. -/
def logit (h : Fin 500 → Fin 512 → EReal) (a : Fin 500 → EReal) (wc : Fin 2 → Fin 512 → EReal)
    (bc : Fin 2 → EReal) (c : Fin 2) : EReal :=
  (∑ m : Fin 512, (∑ t : Fin 500, a t * h t m) * wc c m) + bc c * ∑ t : Fin 500, a t

/-! ## The three results as functions of the nine argument arrays -/

/-- The scores of bag `b`, from the whole arrays: the bag's tiles are rows `(b, ·, ·)` of `H`;
    the score projection is the single row of `Ww`, its bias the single entry of `bw`. -/
def bagScore (H : (⟨3, ![256, 500, 512]⟩ : Shape).Idx → EReal) (Wv : (⟨2, ![128, 512]⟩ : Shape).Idx → EReal)
    (bv : (⟨1, ![128]⟩ : Shape).Idx → EReal) (Wu : (⟨2, ![128, 512]⟩ : Shape).Idx → EReal)
    (bu : (⟨1, ![128]⟩ : Shape).Idx → EReal) (Ww : (⟨2, ![1, 128]⟩ : Shape).Idx → EReal)
    (bw : (⟨1, ![1]⟩ : Shape).Idx → EReal) (b : Fin 256) : Fin 500 → EReal :=
  score (fun t m => H (ValueIdx.ix3 b t m)) (fun l m => Wv (ValueIdx.ix2 l m)) (fun l => bv (ValueIdx.ix1 l))
    (fun l m => Wu (ValueIdx.ix2 l m)) (fun l => bu (ValueIdx.ix1 l)) (fun l => Ww (ValueIdx.ix2 (0 : Fin 1) l))
    (bw (ValueIdx.ix1 (0 : Fin 1)))

/-- The scores as a `[256, 1, 500]` array: entry `(b, ·, t)` is the score of tile `t` of bag `b`. -/
def scoreArray (H : (⟨3, ![256, 500, 512]⟩ : Shape).Idx → EReal) (Wv : (⟨2, ![128, 512]⟩ : Shape).Idx → EReal)
    (bv : (⟨1, ![128]⟩ : Shape).Idx → EReal) (Wu : (⟨2, ![128, 512]⟩ : Shape).Idx → EReal)
    (bu : (⟨1, ![128]⟩ : Shape).Idx → EReal) (Ww : (⟨2, ![1, 128]⟩ : Shape).Idx → EReal)
    (bw : (⟨1, ![1]⟩ : Shape).Idx → EReal) : (⟨3, ![256, 1, 500]⟩ : Shape).Idx → EReal :=
  fun j => bagScore H Wv bv Wu bu Ww bw (j 0) (j 2)

/-- The softmax weights as a `[256, 500]` array. -/
def weightArray (H : (⟨3, ![256, 500, 512]⟩ : Shape).Idx → EReal) (Wv : (⟨2, ![128, 512]⟩ : Shape).Idx → EReal)
    (bv : (⟨1, ![128]⟩ : Shape).Idx → EReal) (Wu : (⟨2, ![128, 512]⟩ : Shape).Idx → EReal)
    (bu : (⟨1, ![128]⟩ : Shape).Idx → EReal) (Ww : (⟨2, ![1, 128]⟩ : Shape).Idx → EReal)
    (bw : (⟨1, ![1]⟩ : Shape).Idx → EReal) : (⟨2, ![256, 500]⟩ : Shape).Idx → EReal :=
  fun j => weight (bagScore H Wv bv Wu bu Ww bw (j 0)) (j 1)

/-- The class logits as a `[256, 2]` array. -/
def logitArray (H : (⟨3, ![256, 500, 512]⟩ : Shape).Idx → EReal) (Wv : (⟨2, ![128, 512]⟩ : Shape).Idx → EReal)
    (bv : (⟨1, ![128]⟩ : Shape).Idx → EReal) (Wu : (⟨2, ![128, 512]⟩ : Shape).Idx → EReal)
    (bu : (⟨1, ![128]⟩ : Shape).Idx → EReal) (Ww : (⟨2, ![1, 128]⟩ : Shape).Idx → EReal)
    (bw : (⟨1, ![1]⟩ : Shape).Idx → EReal) (Wc : (⟨2, ![2, 512]⟩ : Shape).Idx → EReal)
    (bc : (⟨1, ![2]⟩ : Shape).Idx → EReal) : (⟨2, ![256, 2]⟩ : Shape).Idx → EReal :=
  fun j => logit (fun t m => H (ValueIdx.ix3 (j 0) t m)) (weight (bagScore H Wv bv Wu bu Ww bw (j 0)))
    (fun c m => Wc (ValueIdx.ix2 c m)) (fun c => bc (ValueIdx.ix1 c)) (j 1)

end Cert.GatedPool

end
-- ==== Proof.LibKeepdims.lean ====
/-
  Two layout operations read at an index given by coordinates, for a row reduction that keeps its axis
  (`sum(..., axis=-1, keepdims=True)`): the reduced vector `[a]` is first viewed as a column `[a, 1]`, and the column is
  then broadcast along the second axis to `[a, b]`. At `(p, c)` both read the vector's entry `p`: a row-major position in
  `[a, 1]` is the row number itself, and a broadcast reads coordinate `0` on the operand's unit axis whatever `c` is.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit coordinate `u`:
    the row-major position of `(p, u)` in `[a, 1]` is `p · 1 + u = p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry `p`: the first axis is kept (also when
    `a = 1`, where the only row is row `0`), the second is the operand's unit axis and reads `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Payload.lean ====
/-
  The kernel body's arithmetic read at an index.

  One trip of the kernel's loop handles one bag: from the bag's tiles `v18` (a `[1, 500, 512]` block) and the weight
  blocks it forms, per tile, two affine projections to 128 channels, passes one through tanh and the other through the
  logistic function, multiplies them, and projects the product to one score; the 500 scores, laid out as a row, are
  shifted by their maximum, exponentiated and divided by their sum; the weighted sum of the tiles is projected to the two
  classes and the class bias times the total weight is added. Every format change is the identity on extended reals, every
  matrix product into a zero accumulator is the plain sum over the contracted axis, every layout operation (transpose,
  row broadcast, unit-axis cast) reads one entry of its operand. Read entry by entry, the three stored values are the
  specification's `score`, `weight` and `logit` of the bag, with the same grouping of sums and order of factors.
-/
import proofs.«139174_j29051158790279_2_alg».proof.Proof.Gen.KernelIdeal.Skeleton
import proofs.«139174_j29051158790279_2_alg».proof.Proof.Spec
import proofs.«139174_j29051158790279_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BagValue

open Cert.KernelIdeal Cert.KernelIdeal.Gen Idealize.ShloMosaic Idealize.ShloMosaic.ValueIdx

/-! ## The operands as the kernel holds them -/

/-- A same-shape cast of the `[1, 128]` bias row is the row. -/
theorem pay3_eq (x : Vec Ideal S1x128 .f32) : Gen.k0_pay3 (F := Ideal) x = x := shapeCast_self x _
/-- Likewise for the second bias row. -/
theorem pay4_eq (x : Vec Ideal S1x128 .f32) : Gen.k0_pay4 (F := Ideal) x = x := shapeCast_self x _
/-- Likewise for the `[1, 1]` score bias. -/
theorem pay6_eq (x : Vec Ideal S1x1 .f32) : Gen.k0_pay6 (F := Ideal) x = x := shapeCast_self x _
/-- Likewise for the `[1, 2]` class bias. -/
theorem pay8_eq (x : Vec Ideal S1x2 .f32) : Gen.k0_pay8 (F := Ideal) x = x := shapeCast_self x _
/-- Narrowing a weight block's format changes no extended real. -/
theorem pay1_eq (x : Vec Ideal S128x512 .f32) : Gen.k0_pay1 (F := Ideal) x = x := rfl
theorem pay2_eq (x : Vec Ideal S128x512 .f32) : Gen.k0_pay2 (F := Ideal) x = x := rfl
theorem pay5_eq (x : Vec Ideal S1x128 .f32) : Gen.k0_pay5 (F := Ideal) x = x := rfl
theorem pay7_eq (x : Vec Ideal S2x512 .f32) : Gen.k0_pay7 (F := Ideal) x = x := rfl

/-- The bag's tiles as a `[500, 512]` matrix: entry `(t, m)` is entry `(0, t, m)` of the loaded block. -/
theorem pay11_apply (v18 : Vec Ideal S1x500x512 .f32) (t : Fin 500) (m : Fin 512) :
    Gen.k0_pay11 (F := Ideal) v18 (ix2 t m) = v18 (ix3 (0 : Fin 1) t m) := by
  unfold Gen.k0_pay11
  exact shapeCast_1ab_ab_apply v18 _ t m

/-! ## The four matrix products, read at an index -/

theorem matmul_tiles_apply_lhs0 (i : S500x128.Idx) (q : dot_S500x512_S512x128_S500x128_1_0_0_1_n_n.contr.Idx) :
    (dot_S500x512_S512x128_S500x128_1_0_0_1_n_n.lhsIdx i q 0).val = (i 0).val := by
  unfold DotDims.lhsIdx
  rw [dif_neg (show ¬(0 : Fin S500x512.rank) ∈ dot_S500x512_S512x128_S500x128_1_0_0_1_n_n.lhsBatch by decide), dif_pos (show (0 : Fin S500x512.rank) ∈ dot_S500x512_S512x128_S500x128_1_0_0_1_n_n.lhsNonContracting by decide)]
  rfl
theorem matmul_tiles_apply_rhs1 (i : S500x128.Idx) (q : dot_S500x512_S512x128_S500x128_1_0_0_1_n_n.contr.Idx) :
    (dot_S500x512_S512x128_S500x128_1_0_0_1_n_n.rhsIdx i q 1).val = (i 1).val := by
  unfold DotDims.rhsIdx
  rw [dif_neg (show ¬(1 : Fin S512x128.rank) ∈ dot_S500x512_S512x128_S500x128_1_0_0_1_n_n.rhsBatch by decide), dif_pos (show (1 : Fin S512x128.rank) ∈ dot_S500x512_S512x128_S500x128_1_0_0_1_n_n.rhsNonContracting by decide)]
  rfl
/-- `[500, 512] × [512, 128]` into zero: entry `(t, l)` is the sum over the 512 features. -/
theorem matmul_tiles_apply (A : FVec Ideal S500x512 .bf16) (B : FVec Ideal S512x128 .bf16) (t : Fin 500) (l : Fin 128) :
    matmul dot_S500x512_S512x128_S500x128_1_0_0_1_n_n none A B (constant (F := Ideal) S500x128 .f32 0x00000000#32) (ix2 t l)
      = ∑ m : Fin 512, A (ix2 t m) * B (ix2 m l) := by
  refine (Ideal.matmul_constant_zero_apply dot_S500x512_S512x128_S500x128_1_0_0_1_n_n none A B (ix2 t l)).trans ?_
  rw [← Equiv.sum_comp (contrEquiv1 dot_S500x512_S512x128_S500x128_1_0_0_1_n_n 512 rfl rfl).symm]
  refine Finset.sum_congr rfl fun k _ => ?_
  have hk := contrEquiv1_symm_val dot_S500x512_S512x128_S500x128_1_0_0_1_n_n 512 rfl rfl k
  have el : dot_S500x512_S512x128_S500x128_1_0_0_1_n_n.lhsIdx (ix2 t l) ((contrEquiv1 dot_S500x512_S512x128_S500x128_1_0_0_1_n_n 512 rfl rfl).symm k) = ix2 t k :=
    funext fun a => Fin.ext (by
      match a with
      | ⟨0, _⟩ => exact matmul_tiles_apply_lhs0 _ _
      | ⟨1, _⟩ => exact (dot_S500x512_S512x128_S500x128_1_0_0_1_n_n.lhsIdx_val_of_single rfl _ _).trans hk)
  have er : dot_S500x512_S512x128_S500x128_1_0_0_1_n_n.rhsIdx (ix2 t l) ((contrEquiv1 dot_S500x512_S512x128_S500x128_1_0_0_1_n_n 512 rfl rfl).symm k) = ix2 k l :=
    funext fun a => Fin.ext (by
      match a with
      | ⟨0, _⟩ => exact (dot_S500x512_S512x128_S500x128_1_0_0_1_n_n.rhsIdx_val_of_single rfl _ _).trans hk
      | ⟨1, _⟩ => exact matmul_tiles_apply_rhs1 _ _)
  rw [el, er]

theorem matmul_score_apply_lhs0 (i : S500x1.Idx) (q : dot_S500x128_S128x1_S500x1_1_0_0_1_n_n.contr.Idx) :
    (dot_S500x128_S128x1_S500x1_1_0_0_1_n_n.lhsIdx i q 0).val = (i 0).val := by
  unfold DotDims.lhsIdx
  rw [dif_neg (show ¬(0 : Fin S500x128.rank) ∈ dot_S500x128_S128x1_S500x1_1_0_0_1_n_n.lhsBatch by decide), dif_pos (show (0 : Fin S500x128.rank) ∈ dot_S500x128_S128x1_S500x1_1_0_0_1_n_n.lhsNonContracting by decide)]
  rfl
theorem matmul_score_apply_rhs1 (i : S500x1.Idx) (q : dot_S500x128_S128x1_S500x1_1_0_0_1_n_n.contr.Idx) :
    (dot_S500x128_S128x1_S500x1_1_0_0_1_n_n.rhsIdx i q 1).val = (i 1).val := by
  unfold DotDims.rhsIdx
  rw [dif_neg (show ¬(1 : Fin S128x1.rank) ∈ dot_S500x128_S128x1_S500x1_1_0_0_1_n_n.rhsBatch by decide), dif_pos (show (1 : Fin S128x1.rank) ∈ dot_S500x128_S128x1_S500x1_1_0_0_1_n_n.rhsNonContracting by decide)]
  rfl
/-- `[500, 128] × [128, 1]` into zero: entry `(t, u)` is the sum over the 128 channels. -/
theorem matmul_score_apply (A : FVec Ideal S500x128 .bf16) (B : FVec Ideal S128x1 .bf16) (t : Fin 500) (u : Fin 1) :
    matmul dot_S500x128_S128x1_S500x1_1_0_0_1_n_n none A B (constant (F := Ideal) S500x1 .f32 0x00000000#32) (ix2 t u)
      = ∑ l : Fin 128, A (ix2 t l) * B (ix2 l u) := by
  refine (Ideal.matmul_constant_zero_apply dot_S500x128_S128x1_S500x1_1_0_0_1_n_n none A B (ix2 t u)).trans ?_
  rw [← Equiv.sum_comp (contrEquiv1 dot_S500x128_S128x1_S500x1_1_0_0_1_n_n 128 rfl rfl).symm]
  refine Finset.sum_congr rfl fun k _ => ?_
  have hk := contrEquiv1_symm_val dot_S500x128_S128x1_S500x1_1_0_0_1_n_n 128 rfl rfl k
  have el : dot_S500x128_S128x1_S500x1_1_0_0_1_n_n.lhsIdx (ix2 t u) ((contrEquiv1 dot_S500x128_S128x1_S500x1_1_0_0_1_n_n 128 rfl rfl).symm k) = ix2 t k :=
    funext fun a => Fin.ext (by
      match a with
      | ⟨0, _⟩ => exact matmul_score_apply_lhs0 _ _
      | ⟨1, _⟩ => exact (dot_S500x128_S128x1_S500x1_1_0_0_1_n_n.lhsIdx_val_of_single rfl _ _).trans hk)
  have er : dot_S500x128_S128x1_S500x1_1_0_0_1_n_n.rhsIdx (ix2 t u) ((contrEquiv1 dot_S500x128_S128x1_S500x1_1_0_0_1_n_n 128 rfl rfl).symm k) = ix2 k u :=
    funext fun a => Fin.ext (by
      match a with
      | ⟨0, _⟩ => exact (dot_S500x128_S128x1_S500x1_1_0_0_1_n_n.rhsIdx_val_of_single rfl _ _).trans hk
      | ⟨1, _⟩ => exact matmul_score_apply_rhs1 _ _)
  rw [el, er]

theorem matmul_pool_apply_lhs0 (i : S1x512.Idx) (q : dot_S1x500_S500x512_S1x512_1_0_0_1_n_n.contr.Idx) :
    (dot_S1x500_S500x512_S1x512_1_0_0_1_n_n.lhsIdx i q 0).val = (i 0).val := by
  unfold DotDims.lhsIdx
  rw [dif_neg (show ¬(0 : Fin S1x500.rank) ∈ dot_S1x500_S500x512_S1x512_1_0_0_1_n_n.lhsBatch by decide), dif_pos (show (0 : Fin S1x500.rank) ∈ dot_S1x500_S500x512_S1x512_1_0_0_1_n_n.lhsNonContracting by decide)]
  rfl
theorem matmul_pool_apply_rhs1 (i : S1x512.Idx) (q : dot_S1x500_S500x512_S1x512_1_0_0_1_n_n.contr.Idx) :
    (dot_S1x500_S500x512_S1x512_1_0_0_1_n_n.rhsIdx i q 1).val = (i 1).val := by
  unfold DotDims.rhsIdx
  rw [dif_neg (show ¬(1 : Fin S500x512.rank) ∈ dot_S1x500_S500x512_S1x512_1_0_0_1_n_n.rhsBatch by decide), dif_pos (show (1 : Fin S500x512.rank) ∈ dot_S1x500_S500x512_S1x512_1_0_0_1_n_n.rhsNonContracting by decide)]
  rfl
/-- `[1, 500] × [500, 512]` into zero: entry `(u, m)` is the sum over the 500 tiles. -/
theorem matmul_pool_apply (A : FVec Ideal S1x500 .bf16) (B : FVec Ideal S500x512 .bf16) (u : Fin 1) (m : Fin 512) :
    matmul dot_S1x500_S500x512_S1x512_1_0_0_1_n_n none A B (constant (F := Ideal) S1x512 .f32 0x00000000#32) (ix2 u m)
      = ∑ t : Fin 500, A (ix2 u t) * B (ix2 t m) := by
  refine (Ideal.matmul_constant_zero_apply dot_S1x500_S500x512_S1x512_1_0_0_1_n_n none A B (ix2 u m)).trans ?_
  rw [← Equiv.sum_comp (contrEquiv1 dot_S1x500_S500x512_S1x512_1_0_0_1_n_n 500 rfl rfl).symm]
  refine Finset.sum_congr rfl fun k _ => ?_
  have hk := contrEquiv1_symm_val dot_S1x500_S500x512_S1x512_1_0_0_1_n_n 500 rfl rfl k
  have el : dot_S1x500_S500x512_S1x512_1_0_0_1_n_n.lhsIdx (ix2 u m) ((contrEquiv1 dot_S1x500_S500x512_S1x512_1_0_0_1_n_n 500 rfl rfl).symm k) = ix2 u k :=
    funext fun a => Fin.ext (by
      match a with
      | ⟨0, _⟩ => exact matmul_pool_apply_lhs0 _ _
      | ⟨1, _⟩ => exact (dot_S1x500_S500x512_S1x512_1_0_0_1_n_n.lhsIdx_val_of_single rfl _ _).trans hk)
  have er : dot_S1x500_S500x512_S1x512_1_0_0_1_n_n.rhsIdx (ix2 u m) ((contrEquiv1 dot_S1x500_S500x512_S1x512_1_0_0_1_n_n 500 rfl rfl).symm k) = ix2 k m :=
    funext fun a => Fin.ext (by
      match a with
      | ⟨0, _⟩ => exact (dot_S1x500_S500x512_S1x512_1_0_0_1_n_n.rhsIdx_val_of_single rfl _ _).trans hk
      | ⟨1, _⟩ => exact matmul_pool_apply_rhs1 _ _)
  rw [el, er]

theorem matmul_class_apply_lhs0 (i : S1x2.Idx) (q : dot_S1x512_S512x2_S1x2_1_0_0_1_n_n.contr.Idx) :
    (dot_S1x512_S512x2_S1x2_1_0_0_1_n_n.lhsIdx i q 0).val = (i 0).val := by
  unfold DotDims.lhsIdx
  rw [dif_neg (show ¬(0 : Fin S1x512.rank) ∈ dot_S1x512_S512x2_S1x2_1_0_0_1_n_n.lhsBatch by decide), dif_pos (show (0 : Fin S1x512.rank) ∈ dot_S1x512_S512x2_S1x2_1_0_0_1_n_n.lhsNonContracting by decide)]
  rfl
theorem matmul_class_apply_rhs1 (i : S1x2.Idx) (q : dot_S1x512_S512x2_S1x2_1_0_0_1_n_n.contr.Idx) :
    (dot_S1x512_S512x2_S1x2_1_0_0_1_n_n.rhsIdx i q 1).val = (i 1).val := by
  unfold DotDims.rhsIdx
  rw [dif_neg (show ¬(1 : Fin S512x2.rank) ∈ dot_S1x512_S512x2_S1x2_1_0_0_1_n_n.rhsBatch by decide), dif_pos (show (1 : Fin S512x2.rank) ∈ dot_S1x512_S512x2_S1x2_1_0_0_1_n_n.rhsNonContracting by decide)]
  rfl
/-- `[1, 512] × [512, 2]` into zero: entry `(u, c)` is the sum over the 512 features. -/
theorem matmul_class_apply (A : FVec Ideal S1x512 .bf16) (B : FVec Ideal S512x2 .bf16) (u : Fin 1) (c : Fin 2) :
    matmul dot_S1x512_S512x2_S1x2_1_0_0_1_n_n none A B (constant (F := Ideal) S1x2 .f32 0x00000000#32) (ix2 u c)
      = ∑ m : Fin 512, A (ix2 u m) * B (ix2 m c) := by
  refine (Ideal.matmul_constant_zero_apply dot_S1x512_S512x2_S1x2_1_0_0_1_n_n none A B (ix2 u c)).trans ?_
  rw [← Equiv.sum_comp (contrEquiv1 dot_S1x512_S512x2_S1x2_1_0_0_1_n_n 512 rfl rfl).symm]
  refine Finset.sum_congr rfl fun k _ => ?_
  have hk := contrEquiv1_symm_val dot_S1x512_S512x2_S1x2_1_0_0_1_n_n 512 rfl rfl k
  have el : dot_S1x512_S512x2_S1x2_1_0_0_1_n_n.lhsIdx (ix2 u c) ((contrEquiv1 dot_S1x512_S512x2_S1x2_1_0_0_1_n_n 512 rfl rfl).symm k) = ix2 u k :=
    funext fun a => Fin.ext (by
      match a with
      | ⟨0, _⟩ => exact matmul_class_apply_lhs0 _ _
      | ⟨1, _⟩ => exact (dot_S1x512_S512x2_S1x2_1_0_0_1_n_n.lhsIdx_val_of_single rfl _ _).trans hk)
  have er : dot_S1x512_S512x2_S1x2_1_0_0_1_n_n.rhsIdx (ix2 u c) ((contrEquiv1 dot_S1x512_S512x2_S1x2_1_0_0_1_n_n 512 rfl rfl).symm k) = ix2 k c :=
    funext fun a => Fin.ext (by
      match a with
      | ⟨0, _⟩ => exact (dot_S1x512_S512x2_S1x2_1_0_0_1_n_n.rhsIdx_val_of_single rfl _ _).trans hk
      | ⟨1, _⟩ => exact matmul_class_apply_rhs1 _ _)
  rw [el, er]

/-! ## The row reductions and the keepdims steps -/

/-- The row's maximum, folded from the value the accumulator word denotes, is the specification's `peak` of the row. -/
theorem rowMax_apply (src : FVec Ideal S1x500 .f32) (h : S1x500.Reduces [1] S1) (hφ : FKind.Formats .f32)
    (hacc : (0xFF800000#32 : BitVec 32) = FKind.maximumf.neutral .f32 hφ) :
    multiReduction .maximumf [1] S1 src 0xFF800000#32 h hφ hacc (ix1 (0 : Fin 1))
      = Cert.GatedPool.peak (fun t => src (ix2 (0 : Fin 1) t)) := by
  refine (Ideal.multiReduction_maximumf_single src _ h hφ hacc (ix1 (0 : Fin 1))).trans ?_
  unfold Cert.GatedPool.peak
  refine congrArg (fun f => (Finset.univ : Finset (Fin 500)).fold max (Ideal.ofBits .f32 0xFF800000#32) f) (funext fun k => ?_)
  exact congrArg src (funext fun a => Fin.ext (by
    match a with
    | ⟨0, _⟩ => rfl
    | ⟨1, _⟩ => rfl))

/-- The row's sum from the zero word is the sum over the 500 lanes. -/
theorem rowSum_apply (src : FVec Ideal S1x500 .f32) (h : S1x500.Reduces [1] S1) (hφ : FKind.Formats .f32)
    (hacc : (0x00000000#32 : BitVec 32) = FKind.add.neutral .f32 hφ) :
    multiReduction .add [1] S1 src 0x00000000#32 h hφ hacc (ix1 (0 : Fin 1)) = ∑ k : Fin 500, src (ix2 (0 : Fin 1) k) := by
  refine (Ideal.multiReduction_add_single src _ h hφ hacc (ix1 (0 : Fin 1))).trans ?_
  refine Finset.sum_congr rfl fun k _ => ?_
  exact congrArg src (funext fun a => Fin.ext (by
    match a with
    | ⟨0, _⟩ => rfl
    | ⟨1, _⟩ => rfl))

/-- A reduced `[1]` value kept as `[1, 1]` and broadcast along a row of `b` lanes reads the value at every lane. -/
theorem keep_row_apply {α : Type} {b : ℕ} (v : (⟨1, ![1]⟩ : Shape).Idx → α) (hc : (⟨1, ![1]⟩ : Shape).ShapeCasts ⟨2, ![1, 1]⟩)
    (hb : (⟨2, ![1, 1]⟩ : Shape).Broadcasts ⟨2, ![1, b]⟩) (k : Fin b) :
    broadcastTo ⟨2, ![1, b]⟩ (shapeCast ⟨2, ![1, 1]⟩ v hc) hb (ix2 (0 : Fin 1) k) = v (ix1 (0 : Fin 1)) :=
  (broadcastTo_a1_ab_apply _ hb (0 : Fin 1) k).trans (shapeCast_a_a1_apply v hc (0 : Fin 1) (0 : Fin 1))

/-- The row shifted by its maximum and exponentiated, at lane `k`. -/
theorem shifted_apply (P : FVec Ideal S1x500 .f32) (h : S1x500.Reduces [1] S1) (hφ : FKind.Formats .f32)
    (hacc : (0xFF800000#32 : BitVec 32) = FKind.maximumf.neutral .f32 hφ) (hc : S1.ShapeCasts S1x1) (hb : S1x1.Broadcasts S1x500)
    (k : Fin 500) :
    exp (subf P (broadcastTo S1x500 (shapeCast S1x1 (multiReduction .maximumf [1] S1 P 0xFF800000#32 h hφ hacc) hc) hb)) (ix2 (0 : Fin 1) k)
      = Ideal.exp (P (ix2 (0 : Fin 1) k) - Cert.GatedPool.peak (fun t => P (ix2 (0 : Fin 1) t))) :=
  congrArg (fun z => Ideal.exp (P (ix2 (0 : Fin 1) k) - z)) ((keep_row_apply _ hc hb k).trans (rowMax_apply P h hφ hacc))

/-! ## Elementwise steps, by definition of the operations on extended reals -/

/-- The gated channel: the product of tanh of one operand and the logistic function of the other, its format narrowed. -/
theorem gated_apply {s : Shape} (a b : FVec Ideal s .f32) (h : FTy.bits .bf16 < FTy.bits .f32) (i : s.Idx) :
    (truncf .bf16 (mulf (tanh a) (logistic b)) h : FVec Ideal s .bf16) i = Ideal.tanh (a i) * Ideal.logistic (b i) := rfl

/-! ## The three rows the kernel stores -/

section Rows
variable (v1 v3 : FVec Ideal S128x512 .bf16) (v5 v7 : FVec Ideal S1x128 .f32) (v9 : FVec Ideal S1x128 .bf16)
  (v11 : FVec Ideal S1x1 .f32) (v13 : FVec Ideal S2x512 .bf16) (v15 : FVec Ideal S1x2 .f32) (v18 : Vec Ideal S1x500x512 .f32)

/-- The score row at lane `t` is the specification's score of tile `t`. -/
theorem pay12_apply (t : Fin 500) :
    Gen.k0_pay12 (F := Ideal) v1 v3 v5 v7 v9 v11 v18 (ix2 (0 : Fin 1) t)
      = Cert.GatedPool.score (fun t m => v18 (ix3 (0 : Fin 1) t m)) (fun l m => v1 (ix2 l m)) (fun l => v5 (ix2 (0 : Fin 1) l))
          (fun l m => v3 (ix2 l m)) (fun l => v7 (ix2 (0 : Fin 1) l)) (fun l => v9 (ix2 (0 : Fin 1) l))
          (v11 (ix2 (0 : Fin 1) (0 : Fin 1))) t := by
  unfold Gen.k0_pay12 Cert.GatedPool.score Cert.GatedPool.gate
  refine (transpose_ix2_apply _ _ (0 : Fin 1) t).trans ?_
  refine (addf_apply _ _ _).trans ?_
  refine congrArg₂ (· + ·) ((matmul_score_apply _ _ t (0 : Fin 1)).trans (Finset.sum_congr rfl fun l _ => ?_))
    (broadcastTo_1b_ab_apply _ _ t (0 : Fin 1))
  refine congrArg₂ (· * ·) ?_ (transpose_ix2_apply _ _ l (0 : Fin 1))
  refine (gated_apply _ _ _ _).trans ?_
  refine congrArg₂ (fun a b => Ideal.tanh a * Ideal.logistic b) ?_ ?_
  · refine (addf_apply _ _ _).trans ?_
    refine congrArg₂ (· + ·) ((matmul_tiles_apply _ _ t l).trans (Finset.sum_congr rfl fun m _ => ?_))
      (broadcastTo_1b_ab_apply _ _ t l)
    exact congrArg₂ (· * ·) (pay11_apply v18 t m) (transpose_ix2_apply _ _ m l)
  · refine (addf_apply _ _ _).trans ?_
    refine congrArg₂ (· + ·) ((matmul_tiles_apply _ _ t l).trans (Finset.sum_congr rfl fun m _ => ?_))
      (broadcastTo_1b_ab_apply _ _ t l)
    exact congrArg₂ (· * ·) (pay11_apply v18 t m) (transpose_ix2_apply _ _ m l)

/-- The weight row at lane `t` is the specification's softmax weight of the score row. -/
theorem pay13_apply (t : Fin 500) :
    Gen.k0_pay13 (F := Ideal) v1 v3 v5 v7 v9 v11 v18 (ix2 (0 : Fin 1) t)
      = Cert.GatedPool.weight (fun k => Gen.k0_pay12 (F := Ideal) v1 v3 v5 v7 v9 v11 v18 (ix2 (0 : Fin 1) k)) t := by
  unfold Gen.k0_pay13 Cert.GatedPool.weight
  generalize Gen.k0_pay12 (F := Ideal) v1 v3 v5 v7 v9 v11 v18 = P
  refine (divf_apply _ _ _).trans ?_
  refine congrArg₂ Ideal.div (shifted_apply P _ _ _ _ _ t) ?_
  exact (keep_row_apply _ _ _ t).trans ((rowSum_apply _ _ _ _).trans
    (Finset.sum_congr rfl fun k _ => shifted_apply P _ _ _ _ _ k))

/-- The class row at `c` is the specification's logit from the weight row. -/
theorem pay14_apply (c : Fin 2) :
    Gen.k0_pay14 (F := Ideal) v1 v3 v5 v7 v9 v11 v13 v15 v18 (ix3 (0 : Fin 1) (0 : Fin 1) c)
      = Cert.GatedPool.logit (fun t m => v18 (ix3 (0 : Fin 1) t m))
          (fun t => Gen.k0_pay13 (F := Ideal) v1 v3 v5 v7 v9 v11 v18 (ix2 (0 : Fin 1) t))
          (fun c m => v13 (ix2 c m)) (fun c => v15 (ix2 (0 : Fin 1) c)) c := by
  unfold Gen.k0_pay14 Cert.GatedPool.logit
  generalize Gen.k0_pay13 (F := Ideal) v1 v3 v5 v7 v9 v11 v18 = W
  refine (shapeCast_ab_1ab_apply _ _ (0 : Fin 1) (0 : Fin 1) c).trans ?_
  refine (addf_apply _ _ _).trans ?_
  refine congrArg₂ (· + ·) ?_ ?_
  · refine (matmul_class_apply _ _ (0 : Fin 1) c).trans (Finset.sum_congr rfl fun m _ => ?_)
    refine congrArg₂ (· * ·) ?_ (transpose_ix2_apply _ _ m c)
    refine (truncf_apply (φ := .f32) (ψ := .bf16) _ _ _).trans ?_
    refine (matmul_pool_apply _ _ (0 : Fin 1) m).trans (Finset.sum_congr rfl fun t _ => ?_)
    exact congrArg₂ (· * ·) (truncf_apply (φ := .f32) (ψ := .bf16) W _ _) (pay11_apply v18 t m)
  · refine (mulf_apply _ _ _).trans ?_
    refine congrArg (v15 (ix2 (0 : Fin 1) c) * ·) ?_
    exact (keep_row_apply _ _ _ c).trans (rowSum_apply W _ _ _)

end Rows

/-- A `[1, 500]` row stored as `[1, 1, 500]`: entry `(0, 0, t)` is the row's lane `t`. -/
theorem pay9_apply (v : FVec Ideal S1x500 .f32) (t : Fin 500) :
    Gen.k0_pay9 (F := Ideal) v (ix3 (0 : Fin 1) (0 : Fin 1) t) = v (ix2 (0 : Fin 1) t) := by
  unfold Gen.k0_pay9
  exact shapeCast_ab_1ab_apply v _ (0 : Fin 1) (0 : Fin 1) t
/-- Likewise for the second stored row. -/
theorem pay10_apply (v : FVec Ideal S1x500 .f32) (t : Fin 500) :
    Gen.k0_pay10 (F := Ideal) v (ix3 (0 : Fin 1) (0 : Fin 1) t) = v (ix2 (0 : Fin 1) t) := by
  unfold Gen.k0_pay10
  exact shapeCast_ab_1ab_apply v _ (0 : Fin 1) (0 : Fin 1) t

/-! ## The stored values against the specification -/

/-- The scores of the bag whose tiles are `v18`, from the weight blocks as loaded. -/
abbrev rowScore (x1 : Vec Ideal S128x512 .f32) (x2 : Vec Ideal S1x128 .f32) (x3 : Vec Ideal S128x512 .f32)
    (x4 x5 : Vec Ideal S1x128 .f32) (x6 : Vec Ideal S1x1 .f32) (v18 : Vec Ideal S1x500x512 .f32) : Fin 500 → EReal :=
  Cert.GatedPool.score (fun t m => v18 (ix3 (0 : Fin 1) t m)) (fun l m => x1 (ix2 l m)) (fun l => x2 (ix2 (0 : Fin 1) l))
    (fun l m => x3 (ix2 l m)) (fun l => x4 (ix2 (0 : Fin 1) l)) (fun l => x5 (ix2 (0 : Fin 1) l))
    (x6 (ix2 (0 : Fin 1) (0 : Fin 1)))

variable (x1 x3 : Vec Ideal S128x512 .f32) (x2 x4 x5 : Vec Ideal S1x128 .f32) (x6 : Vec Ideal S1x1 .f32)
  (x7 : Vec Ideal S2x512 .f32) (x8 : Vec Ideal S1x2 .f32) (v18 : Vec Ideal S1x500x512 .f32)

/-- The score row as the kernel computes it from the loaded blocks is the bag's score function. -/
theorem score_row (t : Fin 500) :
    Gen.k0_pay12 (F := Ideal) (Gen.k0_pay1 x1) (Gen.k0_pay2 x3) (Gen.k0_pay3 x2) (Gen.k0_pay4 x4) (Gen.k0_pay5 x5) (Gen.k0_pay6 x6) v18
        (ix2 (0 : Fin 1) t) = rowScore x1 x2 x3 x4 x5 x6 v18 t := by
  rw [pay3_eq, pay4_eq, pay6_eq]
  exact pay12_apply _ _ _ _ _ _ v18 t

/-- The stored score of tile `t`. -/
theorem stored_score (t : Fin 500) :
    Gen.k0_pay9 (F := Ideal) (Gen.k0_pay12 (Gen.k0_pay1 x1) (Gen.k0_pay2 x3) (Gen.k0_pay3 x2) (Gen.k0_pay4 x4) (Gen.k0_pay5 x5) (Gen.k0_pay6 x6) v18)
        (ix3 (0 : Fin 1) (0 : Fin 1) t) = rowScore x1 x2 x3 x4 x5 x6 v18 t :=
  (pay9_apply _ t).trans (score_row x1 x3 x2 x4 x5 x6 v18 t)

/-- The weight row as the kernel computes it is the softmax weight of the bag's scores. -/
theorem weight_row (t : Fin 500) :
    Gen.k0_pay13 (F := Ideal) (Gen.k0_pay1 x1) (Gen.k0_pay2 x3) (Gen.k0_pay3 x2) (Gen.k0_pay4 x4) (Gen.k0_pay5 x5) (Gen.k0_pay6 x6) v18
        (ix2 (0 : Fin 1) t) = Cert.GatedPool.weight (rowScore x1 x2 x3 x4 x5 x6 v18) t :=
  (pay13_apply _ _ _ _ _ _ v18 t).trans
    (congrArg (fun s => Cert.GatedPool.weight s t) (funext fun k => score_row x1 x3 x2 x4 x5 x6 v18 k))

/-- The stored softmax weight of tile `t`. -/
theorem stored_weight (t : Fin 500) :
    Gen.k0_pay10 (F := Ideal) (Gen.k0_pay13 (Gen.k0_pay1 x1) (Gen.k0_pay2 x3) (Gen.k0_pay3 x2) (Gen.k0_pay4 x4) (Gen.k0_pay5 x5) (Gen.k0_pay6 x6) v18)
        (ix3 (0 : Fin 1) (0 : Fin 1) t) = Cert.GatedPool.weight (rowScore x1 x2 x3 x4 x5 x6 v18) t :=
  (pay10_apply _ t).trans (weight_row x1 x3 x2 x4 x5 x6 v18 t)

/-- The stored logit of class `c`. -/
theorem stored_logit (c : Fin 2) :
    Gen.k0_pay14 (F := Ideal) (Gen.k0_pay1 x1) (Gen.k0_pay2 x3) (Gen.k0_pay3 x2) (Gen.k0_pay4 x4) (Gen.k0_pay5 x5) (Gen.k0_pay6 x6)
        (Gen.k0_pay7 x7) (Gen.k0_pay8 x8) v18 (ix3 (0 : Fin 1) (0 : Fin 1) c)
      = Cert.GatedPool.logit (fun t m => v18 (ix3 (0 : Fin 1) t m)) (Cert.GatedPool.weight (rowScore x1 x2 x3 x4 x5 x6 v18))
          (fun c m => x7 (ix2 c m)) (fun c => x8 (ix2 (0 : Fin 1) c)) c := by
  refine (pay14_apply _ _ _ _ _ _ _ _ v18 c).trans ?_
  rw [pay8_eq]
  exact congrArg (fun a => Cert.GatedPool.logit (fun t m => v18 (ix3 (0 : Fin 1) t m)) a (fun c m => x7 (ix2 c m))
    (fun c => x8 (ix2 (0 : Fin 1) c)) c) (funext fun t => weight_row x1 x3 x2 x4 x5 x6 v18 t)

end Cert.KernelIdeal.BagValue

end
-- ==== Proof.LoopPieces.lean ====
/-
  Every piece the kernel's loop over the eight bags of a block stores is a slice of ONE function of the block's index.

  Trip `k` of the loop loads bag `k` of the `[8, 500, 512]` block, computes the bag's scores, softmax weights and
  class logits, and stores each as one row at offset `(k, 0, 0)` of its `[8, 1, ·]` output block. The stored rows are
  the specification's `score`, `weight` and `logit` of the bag (the kernel body's arithmetic read at an index); the bag
  a trip loads is row `k` of the block's contents, and the row it stores sits at row `k` of the output, so each stored
  entry is the block function (`blockScores`, `blockWeights`, `blockLogits`) at the entry's own position. The pieces of
  the trips before `n` are, by induction on `n`, one trip's piece in front of the earlier trips' pieces.
-/
import proofs.«139174_j29051158790279_2_alg».proof.Proof.Gen.KernelIdeal.Loops
import proofs.«139174_j29051158790279_2_alg».proof.Proof.Payload
import proofs.«139174_j29051158790279_2_alg».proof.Proof.Spec
import Idealize.ShloMosaic.Lib.Pipeline.Value
import Idealize.ShloMosaic.Lib.ValueIdx
import Idealize.ShloMosaic.Lib.Pipeline.FrameBody
import Idealize.ShloMosaic.Lib.Tactic

noncomputable section

namespace Cert.KernelIdeal.LoopValue

open Cert.KernelIdeal Cert.KernelIdeal.Gen Cert.KernelIdeal.BagValue Idealize.ShloMosaic Idealize.ShloMosaic.ValueIdx
open Idealize.ShloMosaic.TcCoe Idealize.ShloMosaic.Tactic
open Idealize.SL Idealize.SL.Sem

/-! ## The block functions -/

/-- The scores of bag `k` of a block of eight bags. -/
def blockScore (x0 : Vec Ideal S8x500x512 .f32) (x1 : Vec Ideal S128x512 .f32) (x2 : Vec Ideal S1x128 .f32)
    (x3 : Vec Ideal S128x512 .f32) (x4 x5 : Vec Ideal S1x128 .f32) (x6 : Vec Ideal S1x1 .f32) (k : Fin 8) : Fin 500 → EReal :=
  Cert.GatedPool.score (fun t m => x0 (ix3 k t m)) (fun l m => x1 (ix2 l m)) (fun l => x2 (ix2 (0 : Fin 1) l))
    (fun l m => x3 (ix2 l m)) (fun l => x4 (ix2 (0 : Fin 1) l)) (fun l => x5 (ix2 (0 : Fin 1) l))
    (x6 (ix2 (0 : Fin 1) (0 : Fin 1)))

/-- The class logits of the block's bags, as a function of the `[8, 1, 2]` output block's index. -/
def blockLogits (x0 : Vec Ideal S8x500x512 .f32) (x1 : Vec Ideal S128x512 .f32) (x2 : Vec Ideal S1x128 .f32)
    (x3 : Vec Ideal S128x512 .f32) (x4 x5 : Vec Ideal S1x128 .f32) (x6 : Vec Ideal S1x1 .f32) (x7 : Vec Ideal S2x512 .f32)
    (x8 : Vec Ideal S1x2 .f32) : S8x1x2.Idx → EReal := fun y =>
  Cert.GatedPool.logit (fun t m => x0 (ix3 (⟨(y 0).val, (y 0).isLt⟩ : Fin 8) t m))
    (Cert.GatedPool.weight (blockScore x0 x1 x2 x3 x4 x5 x6 ⟨(y 0).val, (y 0).isLt⟩))
    (fun c m => x7 (ix2 c m)) (fun c => x8 (ix2 (0 : Fin 1) c)) ⟨(y 2).val, (y 2).isLt⟩

/-- The softmax weights of the block's bags, as a function of the `[8, 1, 500]` output block's index. -/
def blockWeights (x0 : Vec Ideal S8x500x512 .f32) (x1 : Vec Ideal S128x512 .f32) (x2 : Vec Ideal S1x128 .f32)
    (x3 : Vec Ideal S128x512 .f32) (x4 x5 : Vec Ideal S1x128 .f32) (x6 : Vec Ideal S1x1 .f32) : S8x1x500.Idx → EReal := fun y =>
  Cert.GatedPool.weight (blockScore x0 x1 x2 x3 x4 x5 x6 ⟨(y 0).val, (y 0).isLt⟩) ⟨(y 2).val, (y 2).isLt⟩

/-- The scores of the block's bags, as a function of the `[8, 1, 500]` output block's index. -/
def blockScores (x0 : Vec Ideal S8x500x512 .f32) (x1 : Vec Ideal S128x512 .f32) (x2 : Vec Ideal S1x128 .f32)
    (x3 : Vec Ideal S128x512 .f32) (x4 x5 : Vec Ideal S1x128 .f32) (x6 : Vec Ideal S1x1 .f32) : S8x1x500.Idx → EReal := fun y =>
  blockScore x0 x1 x2 x3 x4 x5 x6 ⟨(y 0).val, (y 0).isLt⟩ ⟨(y 2).val, (y 2).isLt⟩

/-- The block functions at an index whose first coordinate is `K` and last coordinate is `j`. -/
theorem blockLogits_at (x0 : Vec Ideal S8x500x512 .f32) (x1 : Vec Ideal S128x512 .f32) (x2 : Vec Ideal S1x128 .f32)
    (x3 : Vec Ideal S128x512 .f32) (x4 x5 : Vec Ideal S1x128 .f32) (x6 : Vec Ideal S1x1 .f32) (x7 : Vec Ideal S2x512 .f32)
    (x8 : Vec Ideal S1x2 .f32) (y : S8x1x2.Idx) (K : Fin 8) (j : Fin 2) (h0 : (y 0).val = K.val) (h2 : (y 2).val = j.val) :
    blockLogits x0 x1 x2 x3 x4 x5 x6 x7 x8 y
      = Cert.GatedPool.logit (fun t m => x0 (ix3 K t m)) (Cert.GatedPool.weight (blockScore x0 x1 x2 x3 x4 x5 x6 K))
          (fun c m => x7 (ix2 c m)) (fun c => x8 (ix2 (0 : Fin 1) c)) j := by
  have e0 : (⟨(y 0).val, (y 0).isLt⟩ : Fin 8) = K := Fin.ext h0
  have e2 : (⟨(y 2).val, (y 2).isLt⟩ : Fin 2) = j := Fin.ext h2
  unfold blockLogits
  rw [e0, e2]
theorem blockWeights_at (x0 : Vec Ideal S8x500x512 .f32) (x1 : Vec Ideal S128x512 .f32) (x2 : Vec Ideal S1x128 .f32)
    (x3 : Vec Ideal S128x512 .f32) (x4 x5 : Vec Ideal S1x128 .f32) (x6 : Vec Ideal S1x1 .f32)
    (y : S8x1x500.Idx) (K : Fin 8) (j : Fin 500) (h0 : (y 0).val = K.val) (h2 : (y 2).val = j.val) :
    blockWeights x0 x1 x2 x3 x4 x5 x6 y = Cert.GatedPool.weight (blockScore x0 x1 x2 x3 x4 x5 x6 K) j := by
  have e0 : (⟨(y 0).val, (y 0).isLt⟩ : Fin 8) = K := Fin.ext h0
  have e2 : (⟨(y 2).val, (y 2).isLt⟩ : Fin 500) = j := Fin.ext h2
  unfold blockWeights
  rw [e0, e2]
theorem blockScores_at (x0 : Vec Ideal S8x500x512 .f32) (x1 : Vec Ideal S128x512 .f32) (x2 : Vec Ideal S1x128 .f32)
    (x3 : Vec Ideal S128x512 .f32) (x4 x5 : Vec Ideal S1x128 .f32) (x6 : Vec Ideal S1x1 .f32)
    (y : S8x1x500.Idx) (K : Fin 8) (j : Fin 500) (h0 : (y 0).val = K.val) (h2 : (y 2).val = j.val) :
    blockScores x0 x1 x2 x3 x4 x5 x6 y = blockScore x0 x1 x2 x3 x4 x5 x6 K j := by
  have e0 : (⟨(y 0).val, (y 0).isLt⟩ : Fin 8) = K := Fin.ext h0
  have e2 : (⟨(y 2).val, (y 2).isLt⟩ : Fin 500) = j := Fin.ext h2
  unfold blockScores
  rw [e0, e2]

variable (𝒱 : Variants) (c : Dev nD) (bd : Option 𝒱.V) (i : grid0.Coords) (arg1 : Memref sig .tc .vmem S8x500x512 .f32) (harg1 : arg1.IsWhole) (arg2 : Memref sig .tc .vmem S128x512 .f32) (harg2 : arg2.IsWhole) (arg3 : Memref sig .tc .vmem S1x128 .f32) (harg3 : arg3.IsWhole) (arg4 : Memref sig .tc .vmem S128x512 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x1 .f32) (harg7 : arg7.IsWhole) (arg8 : Memref sig .tc .vmem S2x512 .f32) (harg8 : arg8.IsWhole) (arg9 : Memref sig .tc .vmem S1x2 .f32) (harg9 : arg9.IsWhole) (arg10 : Memref sig .tc .vmem S8x1x2 .f32) (harg10 : arg10.IsWhole) (arg11 : Memref sig .tc .vmem S8x1x500 .f32) (harg11 : arg11.IsWhole) (arg12 : Memref sig .tc .vmem S8x1x500 .f32) (harg12 : arg12.IsWhole) (v0 : Vec Ideal S128x512 .f32) (v2 : Vec Ideal S128x512 .f32) (v4 : Vec Ideal S1x128 .f32) (v6 : Vec Ideal S1x128 .f32) (v8 : Vec Ideal S1x128 .f32) (v10 : Vec Ideal S1x1 .f32) (v12 : Vec Ideal S2x512 .f32) (v14 : Vec Ideal S1x2 .f32) (X_arg1 : BufTy.Contents (Elt Ideal) arg1.view.ty)
  (G10 : BufTy.Contents (Elt Ideal) arg10.view.ty) (G11 : BufTy.Contents (Elt Ideal) arg11.view.ty) (G12 : BufTy.Contents (Elt Ideal) arg12.view.ty)

/-! ## The bag a trip loads is row `k` of the block -/

/-- The trips are at most eight. -/
theorem trip_lt (k : Fin k0_t1_loop.trips) : k.val < 8 := Nat.lt_of_lt_of_le k.isLt k0_t1_abs.2.1

/-- Entry `(0, t, m)` of the `[1, 500, 512]` rectangle at offset `(k, 0, 0)` is entry `(k, t, m)` of the block. -/
theorem tiles_eq (k : Fin k0_t1_loop.trips) (h1 : ∀ a, k0_off1 k a + (![1, 500, 512] : Fin 3 → ℕ) a ≤ S8x500x512.size a)
    (t : Fin 500) (m : Fin 512) :
    (View.readAt (Elt Ideal) arg1.view (Rect.unit (s := S8x500x512) (k0_off1 k) ![1, 500, 512] h1).toLoadRect X_arg1) (ix3 (0 : Fin 1) t m) = (View.read (Elt Ideal) arg1.view X_arg1) (ix3 (⟨k.val, trip_lt k⟩ : Fin 8) t m) := by
  refine congrArg (View.read (Elt Ideal) arg1.view X_arg1) (funext fun a => Fin.ext ?_)
  match a with
  | ⟨0, _⟩ => show k0_off1 k 0 + 1 * 0 = k.val; rw [k0_off1_eq k]; rfl
  | ⟨1, _⟩ => show k0_off1 k 1 + 1 * t.val = t.val; rw [k0_off1_eq k]; show 0 + 1 * t.val = t.val; omega
  | ⟨2, _⟩ => show k0_off1 k 2 + 1 * m.val = m.val; rw [k0_off1_eq k]; show 0 + 1 * m.val = m.val; omega

/-- So the loaded bag's scores are the block's scores of bag `k`. -/
theorem rowScore_load (k : Fin k0_t1_loop.trips) (h1 : ∀ a, k0_off1 k a + (![1, 500, 512] : Fin 3 → ℕ) a ≤ S8x500x512.size a) :
    rowScore v0 v4 v2 v6 v8 v10 (View.readAt (Elt Ideal) arg1.view (Rect.unit (s := S8x500x512) (k0_off1 k) ![1, 500, 512] h1).toLoadRect X_arg1) = blockScore (View.read (Elt Ideal) arg1.view X_arg1) v0 v4 v2 v6 v8 v10 ⟨k.val, trip_lt k⟩ := by
  unfold blockScore
  exact congrArg (fun H => Cert.GatedPool.score H (fun l m => v0 (ix2 l m)) (fun l => v4 (ix2 (0 : Fin 1) l))
    (fun l m => v2 (ix2 l m)) (fun l => v6 (ix2 (0 : Fin 1) l)) (fun l => v8 (ix2 (0 : Fin 1) l)) (v10 (ix2 (0 : Fin 1) (0 : Fin 1))))
    (funext fun t => funext fun m => tiles_eq arg1 X_arg1 k h1 t m)

/-! ## One trip's three pieces -/

/-- The logits row a trip stores, entry by entry, is the block's logits at the entry's position. -/
theorem piece_logits (k : Fin k0_t1_loop.trips) (h1 : ∀ a, k0_off1 k a + (![1, 500, 512] : Fin 3 → ℕ) a ≤ S8x500x512.size a)
    (h2 : ∀ a, k0_off2 k a + (![1, 1, 2] : Fin 3 → ℕ) a ≤ S8x1x2.size a)
    (x : (Rect.unit (s := S8x1x2) (k0_off2 k) ![1, 1, 2] h2).shape.Idx) :
    k0_pay14 (F := Ideal) (k0_pay1 v0) (k0_pay2 v2) (k0_pay3 v4) (k0_pay4 v6) (k0_pay5 v8) (k0_pay6 v10) (k0_pay7 v12) (k0_pay8 v14) (View.readAt (Elt Ideal) arg1.view (Rect.unit (s := S8x500x512) (k0_off1 k) ![1, 500, 512] h1).toLoadRect X_arg1) x
      = blockLogits (View.read (Elt Ideal) arg1.view X_arg1) v0 v4 v2 v6 v8 v10 v12 v14 ((Rect.unit (s := S8x1x2) (k0_off2 k) ![1, 1, 2] h2).emb x) := by
  obtain ⟨a, b, j, rfl⟩ : ∃ (a : Fin 1) (b : Fin 1) (j : Fin 2), x = ix3 a b j := ⟨x 0, x 1, x 2, eq_ix3 x⟩
  obtain rfl : a = 0 := Subsingleton.elim _ _
  obtain rfl : b = 0 := Subsingleton.elim _ _
  refine (stored_logit v0 v2 v4 v6 v8 v10 v12 v14 (View.readAt (Elt Ideal) arg1.view (Rect.unit (s := S8x500x512) (k0_off1 k) ![1, 500, 512] h1).toLoadRect X_arg1) j).trans ?_
  refine Eq.trans ?_ (blockLogits_at (View.read (Elt Ideal) arg1.view X_arg1) v0 v4 v2 v6 v8 v10 v12 v14 _ ⟨k.val, trip_lt k⟩ j ?_ ?_).symm
  · exact congrArg₂ (fun H S => Cert.GatedPool.logit H (Cert.GatedPool.weight S) (fun c m => v12 (ix2 c m))
      (fun c => v14 (ix2 (0 : Fin 1) c)) j)
      (funext fun t => funext fun m => tiles_eq arg1 X_arg1 k h1 t m) (rowScore_load arg1 v0 v2 v4 v6 v8 v10 X_arg1 k h1)
  · show k0_off2 k 0 + 1 * 0 = k.val; rw [k0_off2_eq k]; rfl
  · show k0_off2 k 2 + 1 * j.val = j.val; rw [k0_off2_eq k]; show 0 + 1 * j.val = j.val; omega

/-- The weights row a trip stores. -/
theorem piece_weights (k : Fin k0_t1_loop.trips) (h1 : ∀ a, k0_off1 k a + (![1, 500, 512] : Fin 3 → ℕ) a ≤ S8x500x512.size a)
    (h3 : ∀ a, k0_off3 k a + (![1, 1, 500] : Fin 3 → ℕ) a ≤ S8x1x500.size a)
    (x : (Rect.unit (s := S8x1x500) (k0_off3 k) ![1, 1, 500] h3).shape.Idx) :
    k0_pay10 (F := Ideal) (k0_pay13 (k0_pay1 v0) (k0_pay2 v2) (k0_pay3 v4) (k0_pay4 v6) (k0_pay5 v8) (k0_pay6 v10) (View.readAt (Elt Ideal) arg1.view (Rect.unit (s := S8x500x512) (k0_off1 k) ![1, 500, 512] h1).toLoadRect X_arg1)) x
      = blockWeights (View.read (Elt Ideal) arg1.view X_arg1) v0 v4 v2 v6 v8 v10 ((Rect.unit (s := S8x1x500) (k0_off3 k) ![1, 1, 500] h3).emb x) := by
  obtain ⟨a, b, j, rfl⟩ : ∃ (a : Fin 1) (b : Fin 1) (j : Fin 500), x = ix3 a b j := ⟨x 0, x 1, x 2, eq_ix3 x⟩
  obtain rfl : a = 0 := Subsingleton.elim _ _
  obtain rfl : b = 0 := Subsingleton.elim _ _
  refine (stored_weight v0 v2 v4 v6 v8 v10 (View.readAt (Elt Ideal) arg1.view (Rect.unit (s := S8x500x512) (k0_off1 k) ![1, 500, 512] h1).toLoadRect X_arg1) j).trans ?_
  refine Eq.trans ?_ (blockWeights_at (View.read (Elt Ideal) arg1.view X_arg1) v0 v4 v2 v6 v8 v10 _ ⟨k.val, trip_lt k⟩ j ?_ ?_).symm
  · exact congrArg (fun S => Cert.GatedPool.weight S j) (rowScore_load arg1 v0 v2 v4 v6 v8 v10 X_arg1 k h1)
  · show k0_off3 k 0 + 1 * 0 = k.val; rw [k0_off3_eq k]; rfl
  · show k0_off3 k 2 + 1 * j.val = j.val; rw [k0_off3_eq k]; show 0 + 1 * j.val = j.val; omega

/-- The scores row a trip stores. -/
theorem piece_scores (k : Fin k0_t1_loop.trips) (h1 : ∀ a, k0_off1 k a + (![1, 500, 512] : Fin 3 → ℕ) a ≤ S8x500x512.size a)
    (h3 : ∀ a, k0_off3 k a + (![1, 1, 500] : Fin 3 → ℕ) a ≤ S8x1x500.size a)
    (x : (Rect.unit (s := S8x1x500) (k0_off3 k) ![1, 1, 500] h3).shape.Idx) :
    k0_pay9 (F := Ideal) (k0_pay12 (k0_pay1 v0) (k0_pay2 v2) (k0_pay3 v4) (k0_pay4 v6) (k0_pay5 v8) (k0_pay6 v10) (View.readAt (Elt Ideal) arg1.view (Rect.unit (s := S8x500x512) (k0_off1 k) ![1, 500, 512] h1).toLoadRect X_arg1)) x
      = blockScores (View.read (Elt Ideal) arg1.view X_arg1) v0 v4 v2 v6 v8 v10 ((Rect.unit (s := S8x1x500) (k0_off3 k) ![1, 1, 500] h3).emb x) := by
  obtain ⟨a, b, j, rfl⟩ : ∃ (a : Fin 1) (b : Fin 1) (j : Fin 500), x = ix3 a b j := ⟨x 0, x 1, x 2, eq_ix3 x⟩
  obtain rfl : a = 0 := Subsingleton.elim _ _
  obtain rfl : b = 0 := Subsingleton.elim _ _
  refine (stored_score v0 v2 v4 v6 v8 v10 (View.readAt (Elt Ideal) arg1.view (Rect.unit (s := S8x500x512) (k0_off1 k) ![1, 500, 512] h1).toLoadRect X_arg1) j).trans ?_
  refine Eq.trans ?_ (blockScores_at (View.read (Elt Ideal) arg1.view X_arg1) v0 v4 v2 v6 v8 v10 _ ⟨k.val, trip_lt k⟩ j ?_ ?_).symm
  · exact congrFun (rowScore_load arg1 v0 v2 v4 v6 v8 v10 X_arg1 k h1) j
  · show k0_off3 k 0 + 1 * 0 = k.val; rw [k0_off3_eq k]; rfl
  · show k0_off3 k 2 + 1 * j.val = j.val; rw [k0_off3_eq k]; show 0 + 1 * j.val = j.val; omega

/-! ## One trip's piece lists -/

/-- The one piece a trip writes into the logits block is a slice of the block's logits. -/
theorem trip_logits (k : Fin k0_t1_loop.trips) (f10 : BufTy.Contents (Elt Ideal) arg10.view.ty) (f11 : BufTy.Contents (Elt Ideal) arg11.view.ty) (f12 : BufTy.Contents (Elt Ideal) arg12.view.ty) :
    ∀ p ∈ (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 v0 v2 v4 v6 v8 v10 v12 v14 X_arg1 k f10 f11 f12).1, ∀ x : p.1.shape.Idx,
      p.2 x = blockLogits (View.read (Elt Ideal) arg1.view X_arg1) v0 v4 v2 v6 v8 v10 v12 v14 (p.1.emb x) := by
  unfold tripL_k0_t1 trip_k0_t1
  dsimp only
  intro p hp
  rw [List.mem_singleton] at hp
  subst hp
  dsimp only
  exact piece_logits arg1 v0 v2 v4 v6 v8 v10 v12 v14 X_arg1 k (k0_off1_inb k) (k0_off2_inb k)

/-- The one piece a trip writes into the weights block is a slice of the block's weights. -/
theorem trip_weights (k : Fin k0_t1_loop.trips) (f10 : BufTy.Contents (Elt Ideal) arg10.view.ty) (f11 : BufTy.Contents (Elt Ideal) arg11.view.ty) (f12 : BufTy.Contents (Elt Ideal) arg12.view.ty) :
    ∀ p ∈ (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 v0 v2 v4 v6 v8 v10 v12 v14 X_arg1 k f10 f11 f12).2.1, ∀ x : p.1.shape.Idx,
      p.2 x = blockWeights (View.read (Elt Ideal) arg1.view X_arg1) v0 v4 v2 v6 v8 v10 (p.1.emb x) := by
  unfold tripL_k0_t1 trip_k0_t1
  dsimp only
  sl_unfold_run_names
  intro p hp
  rw [List.mem_singleton] at hp
  subst hp
  dsimp only
  exact piece_weights arg1 v0 v2 v4 v6 v8 v10 X_arg1 k (k0_off1_inb k) (k0_off3_inb k)

/-- The one piece a trip writes into the scores block is a slice of the block's scores. -/
theorem trip_scores (k : Fin k0_t1_loop.trips) (f10 : BufTy.Contents (Elt Ideal) arg10.view.ty) (f11 : BufTy.Contents (Elt Ideal) arg11.view.ty) (f12 : BufTy.Contents (Elt Ideal) arg12.view.ty) :
    ∀ p ∈ (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 v0 v2 v4 v6 v8 v10 v12 v14 X_arg1 k f10 f11 f12).2.2, ∀ x : p.1.shape.Idx,
      p.2 x = blockScores (View.read (Elt Ideal) arg1.view X_arg1) v0 v4 v2 v6 v8 v10 (p.1.emb x) := by
  unfold tripL_k0_t1 trip_k0_t1
  dsimp only
  sl_unfold_run_names
  intro p hp
  rw [List.mem_singleton] at hp
  subst hp
  dsimp only
  exact piece_scores arg1 v0 v2 v4 v6 v8 v10 X_arg1 k (k0_off1_inb k) (k0_off3_inb k)

/-! ## The pieces of the trips before `n` -/

/-- Every piece the trips before `n` write into the logits block is a slice of the block's logits. -/
theorem pieces_logits : ∀ (n : ℕ), ∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 v0 v2 v4 v6 v8 v10 v12 v14 X_arg1 G10 G11 G12 n).1, ∀ x : p.1.shape.Idx,
    p.2 x = blockLogits (View.read (Elt Ideal) arg1.view X_arg1) v0 v4 v2 v6 v8 v10 v12 v14 (p.1.emb x) := by
  intro n
  induction n with
  | zero =>
    intro p hp
    rw [pb_k0_t1.eq_1] at hp
    exact absurd hp List.not_mem_nil
  | succ n ih =>
    intro p hp
    rw [pb_k0_t1.eq_2] at hp
    unfold pb_k0_t1Step at hp
    by_cases h : n < k0_t1_loop.trips
    · rw [dif_pos h] at hp
      rcases List.mem_append.mp hp with hp | hp
      · exact trip_logits 𝒱 c bd i arg1 harg1 arg2 harg2 arg3 harg3 arg4 harg4 arg5 harg5 arg6 harg6 arg7 harg7 arg8 harg8 arg9 harg9 arg10 harg10 arg11 harg11 arg12 harg12 v0 v2 v4 v6 v8 v10 v12 v14 X_arg1 ⟨n, h⟩ _ _ _ p hp
      · exact ih p hp
    · rw [dif_neg h] at hp
      exact ih p hp

/-- Every piece the trips before `n` write into the weights block is a slice of the block's weights. -/
theorem pieces_weights : ∀ (n : ℕ), ∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 v0 v2 v4 v6 v8 v10 v12 v14 X_arg1 G10 G11 G12 n).2.1, ∀ x : p.1.shape.Idx,
    p.2 x = blockWeights (View.read (Elt Ideal) arg1.view X_arg1) v0 v4 v2 v6 v8 v10 (p.1.emb x) := by
  intro n
  induction n with
  | zero =>
    intro p hp
    rw [pb_k0_t1.eq_1] at hp
    exact absurd hp List.not_mem_nil
  | succ n ih =>
    intro p hp
    rw [pb_k0_t1.eq_2] at hp
    unfold pb_k0_t1Step at hp
    by_cases h : n < k0_t1_loop.trips
    · rw [dif_pos h] at hp
      rcases List.mem_append.mp hp with hp | hp
      · exact trip_weights 𝒱 c bd i arg1 harg1 arg2 harg2 arg3 harg3 arg4 harg4 arg5 harg5 arg6 harg6 arg7 harg7 arg8 harg8 arg9 harg9 arg10 harg10 arg11 harg11 arg12 harg12 v0 v2 v4 v6 v8 v10 v12 v14 X_arg1 ⟨n, h⟩ _ _ _ p hp
      · exact ih p hp
    · rw [dif_neg h] at hp
      exact ih p hp

/-- Every piece the trips before `n` write into the scores block is a slice of the block's scores. -/
theorem pieces_scores : ∀ (n : ℕ), ∀ p ∈ (pb_k0_t1 (F := Ideal) 𝒱 c bd i arg1 harg1 arg2 harg2 arg3 harg3 arg4 harg4 arg5 harg5 arg6 harg6 arg7 harg7 arg8 harg8 arg9 harg9 arg10 harg10 arg11 harg11 arg12 harg12 v0 v2 v4 v6 v8 v10 v12 v14 X_arg1 G10 G11 G12 n).2.2, ∀ x : p.1.shape.Idx,
    p.2 x = blockScores (View.read (Elt Ideal) arg1.view X_arg1) v0 v4 v2 v6 v8 v10 (p.1.emb x) := by
  intro n
  induction n with
  | zero =>
    intro p hp
    rw [pb_k0_t1.eq_1] at hp
    exact absurd hp List.not_mem_nil
  | succ n ih =>
    intro p hp
    rw [pb_k0_t1.eq_2] at hp
    unfold pb_k0_t1Step at hp
    by_cases h : n < k0_t1_loop.trips
    · rw [dif_pos h] at hp
      rcases List.mem_append.mp hp with hp | hp
      · exact trip_scores 𝒱 c bd i arg1 harg1 arg2 harg2 arg3 harg3 arg4 harg4 arg5 harg5 arg6 harg6 arg7 harg7 arg8 harg8 arg9 harg9 arg10 harg10 arg11 harg11 arg12 harg12 v0 v2 v4 v6 v8 v10 v12 v14 X_arg1 ⟨n, h⟩ _ _ _ p hp
      · exact ih p hp
    · rw [dif_neg h] at hp
      exact ih p hp

end Cert.KernelIdeal.LoopValue

end
-- ==== Proof.Blocks.lean ====
/-
  What each input window's block at a grid point holds, in terms of the arrays the program was launched with.
-/
import proofs.«139174_j29051158790279_2_alg».proof.Proof.Gen.KernelIdeal.Frame.Runs
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.ShloMosaic.ValueIdx Idealize.SL.Sem

variable {F : FTy → Type} [FloatOps F] (m : (ℓ : Loc nD τ sig) → Buf (Elt F) ℓ)

/-- Window 0's index map: block `t` along the bag axis, the other two axes whole. -/
theorem idx0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

/-- Row `k` of block `t` is a bag of the array: `8 t + k < 256` over the 32 points. -/
theorem bag_lt (t : Fin cfg0.N) (k : Fin 8) : 8 * t.val + k.val < 256 := by
  have ht := t.isLt
  have hN : cfg0.N = 32 := N_0
  have hk := k.isLt
  omega

/-- Window 0's block at point `t` holds bags `8 t … 8 t + 7` of `main_arg0` as launched. -/
theorem blk0 (c : Dev nD) (t : Fin cfg0.N) (k : Fin 8) (r : Fin 500) (q : Fin 512) :
    (iblk m c 0 t : Vec F S8x500x512 .f32) (ix3 k r q)
      = m ((c : Thread nD τ).loc main_arg0) (ix3 (⟨8 * t.val + k.val, bag_lt t k⟩ : Fin 256) r q) := by
  have hi := idx0 t
  unfold iblk
  rw [View.read_apply]
  show V m c main_arg0 _ = m (c.tc.loc main_arg0) _
  rw [V_main_arg0]
  refine congrArg _ (funext fun a => Fin.ext ?_)
  match a with
  | ⟨0, _⟩ => show win0_0.index t 0 * 8 + 1 * k.val = 8 * t.val + k.val; rw [hi.1]; omega
  | ⟨1, _⟩ => show win0_0.index t 1 * 500 + 1 * r.val = r.val; rw [hi.2.1]; omega
  | ⟨2, _⟩ => show win0_0.index t 2 * 512 + 1 * q.val = q.val; rw [hi.2.2]; omega

/-- Window 1's index map is constant zero: its one block is the whole array. -/
theorem idx1 : ∀ t : Fin cfg0.N, win0_1.index t 0 = 0 ∧ win0_1.index t 1 = 0 :=
  (by decide +kernel : ∀ t : Fin grid0.N, win0_1.index t 0 = 0 ∧ win0_1.index t 1 = 0)

/-- Window 1's block at every point is the whole of `main_arg1` as launched. -/
theorem blk1 (c : Dev nD) (t : Fin cfg0.N) :
    (iblk m c 1 t : Vec F S128x512 .f32) = m ((c : Thread nD τ).loc main_arg1) := by
  have hi := idx1 t
  funext j
  unfold iblk
  rw [View.read_apply]
  show V m c main_arg1 _ = m (c.tc.loc main_arg1) _
  rw [V_main_arg1]
  refine congrArg _ (funext fun a => Fin.ext ?_)
  match a with
  | ⟨0, _⟩ => show win0_1.index t 0 * 128 + 1 * (j 0).val = (j 0).val; rw [hi.1]; omega
  | ⟨1, _⟩ => show win0_1.index t 1 * 512 + 1 * (j 1).val = (j 1).val; rw [hi.2]; omega

/-- Window 2's index map is constant zero: its one block is the whole array. -/
theorem idx2 : ∀ t : Fin cfg0.N, win0_2.index t 0 = 0 ∧ win0_2.index t 1 = 0 :=
  (by decide +kernel : ∀ t : Fin grid0.N, win0_2.index t 0 = 0 ∧ win0_2.index t 1 = 0)

/-- The array window 2 stages is `main_arg2` as launched, given a leading unit axis by the host. -/
theorem V_main_v0 (c : Dev nD) :
    (V m c main_v0 : S1x128.Idx → Elt F .f32) = shapeCast S1x128 (m ((c : Thread nD τ).loc main_arg2)) Facts₀.shapeCasts_S128_S1x128 := by
  show StableHlo.after hostOps0 (fun b => m (c, b)) (Proc.devRef .tc main_v0) = _
  after_results
  rfl

/-- Window 2's block at every point reads, at `(0, i)`, entry `i` of `main_arg2` as launched. -/
theorem blk2 (c : Dev nD) (t : Fin cfg0.N) (i : Fin 128) :
    (iblk m c 2 t : Vec F S1x128 .f32) (ix2 (0 : Fin 1) i) = m ((c : Thread nD τ).loc main_arg2) (ix1 i) := by
  have hi := idx2 t
  unfold iblk
  rw [View.read_apply]
  show V m c main_v0 _ = _
  rw [V_main_v0]
  refine (congrArg (shapeCast S1x128 (m ((c : Thread nD τ).loc main_arg2)) Facts₀.shapeCasts_S128_S1x128)
    (?_ : _ = ix2 (0 : Fin 1) i)).trans (shapeCast_a_1a_apply _ _ 0 i)
  refine funext fun a => Fin.ext ?_
  match a with
  | ⟨0, _⟩ => show win0_2.index t 0 * 1 + 1 * 0 = 0; rw [hi.1]
  | ⟨1, _⟩ => show win0_2.index t 1 * 128 + 1 * i.val = i.val; rw [hi.2]; omega

/-- Window 3's index map is constant zero: its one block is the whole array. -/
theorem idx3 : ∀ t : Fin cfg0.N, win0_3.index t 0 = 0 ∧ win0_3.index t 1 = 0 :=
  (by decide +kernel : ∀ t : Fin grid0.N, win0_3.index t 0 = 0 ∧ win0_3.index t 1 = 0)

/-- Window 3's block at every point is the whole of `main_arg3` as launched. -/
theorem blk3 (c : Dev nD) (t : Fin cfg0.N) :
    (iblk m c 3 t : Vec F S128x512 .f32) = m ((c : Thread nD τ).loc main_arg3) := by
  have hi := idx3 t
  funext j
  unfold iblk
  rw [View.read_apply]
  show V m c main_arg3 _ = m (c.tc.loc main_arg3) _
  rw [V_main_arg3]
  refine congrArg _ (funext fun a => Fin.ext ?_)
  match a with
  | ⟨0, _⟩ => show win0_3.index t 0 * 128 + 1 * (j 0).val = (j 0).val; rw [hi.1]; omega
  | ⟨1, _⟩ => show win0_3.index t 1 * 512 + 1 * (j 1).val = (j 1).val; rw [hi.2]; omega

/-- Window 4's index map is constant zero: its one block is the whole array. -/
theorem idx4 : ∀ t : Fin cfg0.N, win0_4.index t 0 = 0 ∧ win0_4.index t 1 = 0 :=
  (by decide +kernel : ∀ t : Fin grid0.N, win0_4.index t 0 = 0 ∧ win0_4.index t 1 = 0)

/-- The array window 4 stages is `main_arg4` as launched, given a leading unit axis by the host. -/
theorem V_main_v1 (c : Dev nD) :
    (V m c main_v1 : S1x128.Idx → Elt F .f32) = shapeCast S1x128 (m ((c : Thread nD τ).loc main_arg4)) Facts₀.shapeCasts_S128_S1x128 := by
  show StableHlo.after hostOps0 (fun b => m (c, b)) (Proc.devRef .tc main_v1) = _
  after_results
  rfl

/-- Window 4's block at every point reads, at `(0, i)`, entry `i` of `main_arg4` as launched. -/
theorem blk4 (c : Dev nD) (t : Fin cfg0.N) (i : Fin 128) :
    (iblk m c 4 t : Vec F S1x128 .f32) (ix2 (0 : Fin 1) i) = m ((c : Thread nD τ).loc main_arg4) (ix1 i) := by
  have hi := idx4 t
  unfold iblk
  rw [View.read_apply]
  show V m c main_v1 _ = _
  rw [V_main_v1]
  refine (congrArg (shapeCast S1x128 (m ((c : Thread nD τ).loc main_arg4)) Facts₀.shapeCasts_S128_S1x128)
    (?_ : _ = ix2 (0 : Fin 1) i)).trans (shapeCast_a_1a_apply _ _ 0 i)
  refine funext fun a => Fin.ext ?_
  match a with
  | ⟨0, _⟩ => show win0_4.index t 0 * 1 + 1 * 0 = 0; rw [hi.1]
  | ⟨1, _⟩ => show win0_4.index t 1 * 128 + 1 * i.val = i.val; rw [hi.2]; omega

/-- Window 5's index map is constant zero: its one block is the whole array. -/
theorem idx5 : ∀ t : Fin cfg0.N, win0_5.index t 0 = 0 ∧ win0_5.index t 1 = 0 :=
  (by decide +kernel : ∀ t : Fin grid0.N, win0_5.index t 0 = 0 ∧ win0_5.index t 1 = 0)

/-- Window 5's block at every point is the whole of `main_arg5` as launched. -/
theorem blk5 (c : Dev nD) (t : Fin cfg0.N) :
    (iblk m c 5 t : Vec F S1x128 .f32) = m ((c : Thread nD τ).loc main_arg5) := by
  have hi := idx5 t
  funext j
  unfold iblk
  rw [View.read_apply]
  show V m c main_arg5 _ = m (c.tc.loc main_arg5) _
  rw [V_main_arg5]
  refine congrArg _ (funext fun a => Fin.ext ?_)
  match a with
  | ⟨0, _⟩ => show win0_5.index t 0 * 1 + 1 * (j 0).val = (j 0).val; rw [hi.1]; omega
  | ⟨1, _⟩ => show win0_5.index t 1 * 128 + 1 * (j 1).val = (j 1).val; rw [hi.2]; omega

/-- Window 6's index map is constant zero: its one block is the whole array. -/
theorem idx6 : ∀ t : Fin cfg0.N, win0_6.index t 0 = 0 ∧ win0_6.index t 1 = 0 :=
  (by decide +kernel : ∀ t : Fin grid0.N, win0_6.index t 0 = 0 ∧ win0_6.index t 1 = 0)

/-- The array window 6 stages is `main_arg6` as launched, given a leading unit axis by the host. -/
theorem V_main_v2 (c : Dev nD) :
    (V m c main_v2 : S1x1.Idx → Elt F .f32) = shapeCast S1x1 (m ((c : Thread nD τ).loc main_arg6)) Facts₀.shapeCasts_S1_S1x1 := by
  show StableHlo.after hostOps0 (fun b => m (c, b)) (Proc.devRef .tc main_v2) = _
  after_results
  rfl

/-- Window 6's block at every point reads, at `(0, i)`, entry `i` of `main_arg6` as launched. -/
theorem blk6_at (c : Dev nD) (t : Fin cfg0.N) (i : Fin 1) :
    (iblk m c 6 t : Vec F S1x1 .f32) (ix2 (0 : Fin 1) i) = m ((c : Thread nD τ).loc main_arg6) (ix1 i) := by
  have hi := idx6 t
  unfold iblk
  rw [View.read_apply]
  show V m c main_v2 _ = _
  rw [V_main_v2]
  refine (congrArg (shapeCast S1x1 (m ((c : Thread nD τ).loc main_arg6)) Facts₀.shapeCasts_S1_S1x1)
    (?_ : _ = ix2 (0 : Fin 1) i)).trans (shapeCast_a_1a_apply _ _ 0 i)
  refine funext fun a => Fin.ext ?_
  match a with
  | ⟨0, _⟩ => show win0_6.index t 0 * 1 + 1 * 0 = 0; rw [hi.1]
  | ⟨1, _⟩ => show win0_6.index t 1 * 1 + 1 * i.val = i.val; rw [hi.2]; omega

/-- Window 6's block at every point reads, at its one index, the one entry of `main_arg6` as launched. -/
theorem blk6 (c : Dev nD) (t : Fin cfg0.N) :
    (iblk m c 6 t : Vec F S1x1 .f32) (ix2 (0 : Fin 1) (0 : Fin 1)) = m ((c : Thread nD τ).loc main_arg6) (ix1 (0 : Fin 1)) :=
  blk6_at m c t 0

/-- Window 7's index map is constant zero: its one block is the whole array. -/
theorem idx7 : ∀ t : Fin cfg0.N, win0_7.index t 0 = 0 ∧ win0_7.index t 1 = 0 :=
  (by decide +kernel : ∀ t : Fin grid0.N, win0_7.index t 0 = 0 ∧ win0_7.index t 1 = 0)

/-- Window 7's block at every point is the whole of `main_arg7` as launched. -/
theorem blk7 (c : Dev nD) (t : Fin cfg0.N) :
    (iblk m c 7 t : Vec F S2x512 .f32) = m ((c : Thread nD τ).loc main_arg7) := by
  have hi := idx7 t
  funext j
  unfold iblk
  rw [View.read_apply]
  show V m c main_arg7 _ = m (c.tc.loc main_arg7) _
  rw [V_main_arg7]
  refine congrArg _ (funext fun a => Fin.ext ?_)
  match a with
  | ⟨0, _⟩ => show win0_7.index t 0 * 2 + 1 * (j 0).val = (j 0).val; rw [hi.1]; omega
  | ⟨1, _⟩ => show win0_7.index t 1 * 512 + 1 * (j 1).val = (j 1).val; rw [hi.2]; omega

/-- Window 8's index map is constant zero: its one block is the whole array. -/
theorem idx8 : ∀ t : Fin cfg0.N, win0_8.index t 0 = 0 ∧ win0_8.index t 1 = 0 :=
  (by decide +kernel : ∀ t : Fin grid0.N, win0_8.index t 0 = 0 ∧ win0_8.index t 1 = 0)

/-- The array window 8 stages is `main_arg8` as launched, given a leading unit axis by the host. -/
theorem V_main_v3 (c : Dev nD) :
    (V m c main_v3 : S1x2.Idx → Elt F .f32) = shapeCast S1x2 (m ((c : Thread nD τ).loc main_arg8)) Facts₀.shapeCasts_S2_S1x2 := by
  show StableHlo.after hostOps0 (fun b => m (c, b)) (Proc.devRef .tc main_v3) = _
  after_results
  rfl

/-- Window 8's block at every point reads, at `(0, i)`, entry `i` of `main_arg8` as launched. -/
theorem blk8 (c : Dev nD) (t : Fin cfg0.N) (i : Fin 2) :
    (iblk m c 8 t : Vec F S1x2 .f32) (ix2 (0 : Fin 1) i) = m ((c : Thread nD τ).loc main_arg8) (ix1 i) := by
  have hi := idx8 t
  unfold iblk
  rw [View.read_apply]
  show V m c main_v3 _ = _
  rw [V_main_v3]
  refine (congrArg (shapeCast S1x2 (m ((c : Thread nD τ).loc main_arg8)) Facts₀.shapeCasts_S2_S1x2)
    (?_ : _ = ix2 (0 : Fin 1) i)).trans (shapeCast_a_1a_apply _ _ 0 i)
  refine funext fun a => Fin.ext ?_
  match a with
  | ⟨0, _⟩ => show win0_8.index t 0 * 1 + 1 * 0 = 0; rw [hi.1]
  | ⟨1, _⟩ => show win0_8.index t 1 * 2 + 1 * i.val = i.val; rw [hi.2]; omega

end Cert.KernelIdeal.Blocks

end
-- ==== Proof.Tail.lean ====
/-
  The kernel program's run stated at its three results, given what the region's three output arrays hold.

  After the region the program drops the unit middle axis of two of the three output arrays; the third is returned
  as it is. An `[a, 1, b]` array viewed as `[a, b]` reads, at `(p, q)`, the entry `(p, 0, q)`: both have row-major
  position `p · b + q`.
-/
import proofs.«139174_j29051158790279_2_alg».proof.Proof.PatchedKernelIdealFrame
import Idealize.ShloMosaic.Lib.Pipeline.Value
import Idealize.ShloMosaic.Lib.Pipeline.FrameSuffix
import Idealize.ShloMosaic.Lib.StableHlo.Run
import Idealize.ShloMosaic.Lib.ValueIdx
import Idealize.ShloMosaic.Lib.ValueLayout

noncomputable section

namespace Cert.KernelIdeal.Tail

open Cert.KernelIdeal Cert.KernelIdeal.Gen Cert.KernelIdeal.GenP Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- An `[a, 1, b]` array with its unit middle axis dropped: entry `(p, q)` is the array's `(p, 0, q)`. -/
def dropUnit {a b : ℕ} (X : (⟨3, ![a, 1, b]⟩ : Shape).Idx → EReal) : (⟨2, ![a, b]⟩ : Shape).Idx → EReal :=
  fun j => X (ix3 (⟨(j 0).val, (j 0).isLt⟩ : Fin a) (0 : Fin 1) (⟨(j 1).val, (j 1).isLt⟩ : Fin b))

/-- Viewing an `[a, 1, b]` array as `[a, b]` drops the unit axis: `(p, q)` and `(p, 0, q)` have the same row-major
    position `p · b + q`. -/
theorem shapeCast_a1b_ab {a b : ℕ} (X : (⟨3, ![a, 1, b]⟩ : Shape).Idx → EReal)
    (h : (⟨3, ![a, 1, b]⟩ : Shape).ShapeCasts ⟨2, ![a, b]⟩) : shapeCast ⟨2, ![a, b]⟩ X h = dropUnit X := by
  funext j
  refine shapeCast_apply X h j _ ?_
  rw [Shape.rowMajor_val_three, Shape.rowMajor_val_two]
  show ((j 0).val * 1 + 0) * b + (j 1).val = (j 0).val * b + (j 1).val
  rw [Nat.mul_one, Nat.add_zero]

/-- The first result after the region's two host lines: the region's first output array, its unit axis dropped. -/
theorem tail_v5 (c : Dev nD) (L : S256x1x2.Idx → EReal) (h9 : (dats m 0 c).arrAt 9 cfg0.N = L) :
    Pipeline.afterTail₀ cfgs (dats m) 0 (V0 m) [hostOps1] c main_v5 = dropUnit L := by
  have e : Pipeline.withArrays spec0 c (V0 m c) (fun w => (dats m 0 c).arrAt w cfg0.N) (Proc.devRef .tc main_v4_0) = L :=
    (Pipeline.withArrays_arr spec0 launch0.win.arr_inj c _ _ 9).trans h9
  unfold Pipeline.afterTail₀
  show StableHlo.after hostOps1 _ (Proc.devRef .tc main_v5) = _
  after_results
  show shapeCast S256x2 (Pipeline.withArrays spec0 c (V0 m c) (fun w => (dats m 0 c).arrAt w cfg0.N) (Proc.devRef .tc main_v4_0))
    Facts₀.shapeCasts_S256x1x2_S256x2 = _
  exact (congrArg (fun X => shapeCast S256x2 X Facts₀.shapeCasts_S256x1x2_S256x2) e).trans (shapeCast_a1b_ab L _)

/-- The second result: the region's second output array, its unit axis dropped. -/
theorem tail_v6 (c : Dev nD) (W : S256x1x500.Idx → EReal) (h10 : (dats m 0 c).arrAt 10 cfg0.N = W) :
    Pipeline.afterTail₀ cfgs (dats m) 0 (V0 m) [hostOps1] c main_v6 = dropUnit W := by
  have e : Pipeline.withArrays spec0 c (V0 m c) (fun w => (dats m 0 c).arrAt w cfg0.N) (Proc.devRef .tc main_v4_1) = W :=
    (Pipeline.withArrays_arr spec0 launch0.win.arr_inj c _ _ 10).trans h10
  unfold Pipeline.afterTail₀
  show StableHlo.after hostOps1 _ (Proc.devRef .tc main_v6) = _
  after_results
  show shapeCast S256x500 (Pipeline.withArrays spec0 c (V0 m c) (fun w => (dats m 0 c).arrAt w cfg0.N) (Proc.devRef .tc main_v4_1))
    Facts₀.shapeCasts_S256x1x500_S256x500 = _
  exact (congrArg (fun X => shapeCast S256x500 X Facts₀.shapeCasts_S256x1x500_S256x500) e).trans (shapeCast_a1b_ab W _)

/-- The run of the whole program, read at its three results and its nine arguments: the first two results are the
    region's first two output arrays with the unit axis dropped, the third is the third output array, and every
    argument ends as launched. -/
theorem run_of_finals (L : (c : Dev nD) → S256x1x2.Idx → EReal) (W S : (c : Dev nD) → S256x1x500.Idx → EReal)
    (h9 : ∀ c, (dats m 0 c).arrAt 9 cfg0.N = L c) (h10 : ∀ c, (dats m 0 c).arrAt 10 cfg0.N = W c)
    (h11 : ∀ c, (dats m 0 c).arrAt 11 cfg0.N = S c) :
    θ_run (defs (F := Ideal)) (onTc (τ := τ) (main (F := Ideal))) ⟨m, fun _ => 0, ρ⟩ (fun r => ∀ c : Dev nD,
      r.2.mem ((c.tc : Thread nD τ).loc main_v5) = dropUnit (L c)
      ∧ r.2.mem ((c.tc : Thread nD τ).loc main_v6) = dropUnit (W c)
      ∧ r.2.mem ((c.tc : Thread nD τ).loc main_v4_2) = S c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v5 (Pipeline.mem_restRefs_of main_v5 (by decide) (by decide))).trans (tail_v5 m c (L c) (h9 c)),
      ((h c).2 main_v6 (Pipeline.mem_restRefs_of main_v6 (by decide) (by decide))).trans (tail_v6 m c (W c) (h10 c)),
      ((h c).1 11).trans (h11 c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c))⟩)
    (run_main m ρ)

end Cert.KernelIdeal.Tail

end
-- ==== Proof.KernelValue.lean ====
/-
  What the kernel's three result arrays hold after the run, at the ideal instance.

  One grid point handles a block of 8 bags; the body's counted loop handles one bag per trip and stores, for bag `k` of
  the block, row `k` of each output's staging buffer: the class logits, the softmax weights and the scores of that bag,
  each a function of the bag's own 500 tiles and of the weights only. So each staging buffer after the body is one
  function of the block index (first part), the blocks written back at the 32 grid points are slices of one function of
  the array index over the arguments as launched (second part), the 32 blocks tile the arrays (third part), and the two
  reshapes after the region only drop the unit axis (fourth part).
-/
import proofs.«139174_j29051158790279_2_alg».proof.Proof.PatchedKernelIdealFrame
import proofs.«139174_j29051158790279_2_alg».proof.Proof.LoopPieces
import proofs.«139174_j29051158790279_2_alg».proof.Proof.Blocks
import proofs.«139174_j29051158790279_2_alg».proof.Proof.Tail
import proofs.«139174_j29051158790279_2_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.PoolValue

open Cert.KernelIdeal Cert.KernelIdeal.Gen Cert.KernelIdeal.GenP Cert.KernelIdeal.LoopValue Cert.KernelIdeal.Blocks
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl

/-! ## A staging buffer after the body is one function of the block index -/

/-- Every piece the body stores into the logits' staging buffer is a slice of `blockLogits` of the loaded blocks. -/
theorem run_pieces_logits (c : Dev nD) (i : grid0.Coords) (arg1 : Memref sig .tc .vmem S8x500x512 .f32) (harg1 : arg1.IsWhole) (arg2 : Memref sig .tc .vmem S128x512 .f32) (harg2 : arg2.IsWhole) (arg3 : Memref sig .tc .vmem S1x128 .f32) (harg3 : arg3.IsWhole) (arg4 : Memref sig .tc .vmem S128x512 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x1 .f32) (harg7 : arg7.IsWhole) (arg8 : Memref sig .tc .vmem S2x512 .f32) (harg8 : arg8.IsWhole) (arg9 : Memref sig .tc .vmem S1x2 .f32) (harg9 : arg9.IsWhole) (arg10 : Memref sig .tc .vmem S8x1x2 .f32) (harg10 : arg10.IsWhole) (arg11 : Memref sig .tc .vmem S8x1x500 .f32) (harg11 : arg11.IsWhole) (arg12 : Memref sig .tc .vmem S8x1x500 .f32) (harg12 : arg12.IsWhole) (x0 : Vec Ideal S8x500x512 .f32) (x1 : Vec Ideal S128x512 .f32) (x2 : Vec Ideal S1x128 .f32) (x3 : Vec Ideal S128x512 .f32) (x4 x5 : Vec Ideal S1x128 .f32) (x6 : Vec Ideal S1x1 .f32) (x7 : Vec Ideal S2x512 .f32) (x8 : Vec Ideal S1x2 .f32) :
    ∀ p ∈ (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8).1, ∀ x : p.1.shape.Idx,
      p.2 x = blockLogits x0 x1 x2 x3 x4 x5 x6 x7 x8 (p.1.emb x) := by
  unfold kernelRun0_A
  dsimp only
  intro p hp x
  have h := pieces_logits _ _ _ _ _ _ _ _ _ _ _ _ _ _ _ _ _ _ _ _ _ _ _ _ _ _ _ _ _ _ _ _ _ _ _ _ _ _ _ _ _ p hp x
  simp only [View.readAt_eq_ld, harg1.read_unread, harg2.read_unread, harg3.read_unread, harg4.read_unread, harg5.read_unread, harg6.read_unread, harg7.read_unread, harg8.read_unread, harg9.read_unread, View.ld_unit_zero (S := S128x512) hz2, View.ld_unit_zero (S := S1x128) hz2, View.ld_unit_zero (S := S1x1) hz2, View.ld_unit_zero (S := S2x512) hz2, View.ld_unit_zero (S := S1x2) hz2] at h
  exact h

/-- Likewise the weights' staging buffer and `blockWeights`. -/
theorem run_pieces_weights (c : Dev nD) (i : grid0.Coords) (arg1 : Memref sig .tc .vmem S8x500x512 .f32) (harg1 : arg1.IsWhole) (arg2 : Memref sig .tc .vmem S128x512 .f32) (harg2 : arg2.IsWhole) (arg3 : Memref sig .tc .vmem S1x128 .f32) (harg3 : arg3.IsWhole) (arg4 : Memref sig .tc .vmem S128x512 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x1 .f32) (harg7 : arg7.IsWhole) (arg8 : Memref sig .tc .vmem S2x512 .f32) (harg8 : arg8.IsWhole) (arg9 : Memref sig .tc .vmem S1x2 .f32) (harg9 : arg9.IsWhole) (arg10 : Memref sig .tc .vmem S8x1x2 .f32) (harg10 : arg10.IsWhole) (arg11 : Memref sig .tc .vmem S8x1x500 .f32) (harg11 : arg11.IsWhole) (arg12 : Memref sig .tc .vmem S8x1x500 .f32) (harg12 : arg12.IsWhole) (x0 : Vec Ideal S8x500x512 .f32) (x1 : Vec Ideal S128x512 .f32) (x2 : Vec Ideal S1x128 .f32) (x3 : Vec Ideal S128x512 .f32) (x4 x5 : Vec Ideal S1x128 .f32) (x6 : Vec Ideal S1x1 .f32) (x7 : Vec Ideal S2x512 .f32) (x8 : Vec Ideal S1x2 .f32) :
    ∀ p ∈ (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8).2.1, ∀ x : p.1.shape.Idx,
      p.2 x = blockWeights x0 x1 x2 x3 x4 x5 x6 (p.1.emb x) := by
  unfold kernelRun0_A
  dsimp only
  intro p hp x
  have h := pieces_weights _ _ _ _ _ _ _ _ _ _ _ _ _ _ _ _ _ _ _ _ _ _ _ _ _ _ _ _ _ _ _ _ _ _ _ _ _ _ _ _ _ p hp x
  simp only [View.readAt_eq_ld, harg1.read_unread, harg2.read_unread, harg3.read_unread, harg4.read_unread, harg5.read_unread, harg6.read_unread, harg7.read_unread, harg8.read_unread, harg9.read_unread, View.ld_unit_zero (S := S128x512) hz2, View.ld_unit_zero (S := S1x128) hz2, View.ld_unit_zero (S := S1x1) hz2, View.ld_unit_zero (S := S2x512) hz2, View.ld_unit_zero (S := S1x2) hz2] at h
  exact h

/-- Likewise the scores' staging buffer and `blockScores`. -/
theorem run_pieces_scores (c : Dev nD) (i : grid0.Coords) (arg1 : Memref sig .tc .vmem S8x500x512 .f32) (harg1 : arg1.IsWhole) (arg2 : Memref sig .tc .vmem S128x512 .f32) (harg2 : arg2.IsWhole) (arg3 : Memref sig .tc .vmem S1x128 .f32) (harg3 : arg3.IsWhole) (arg4 : Memref sig .tc .vmem S128x512 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x1 .f32) (harg7 : arg7.IsWhole) (arg8 : Memref sig .tc .vmem S2x512 .f32) (harg8 : arg8.IsWhole) (arg9 : Memref sig .tc .vmem S1x2 .f32) (harg9 : arg9.IsWhole) (arg10 : Memref sig .tc .vmem S8x1x2 .f32) (harg10 : arg10.IsWhole) (arg11 : Memref sig .tc .vmem S8x1x500 .f32) (harg11 : arg11.IsWhole) (arg12 : Memref sig .tc .vmem S8x1x500 .f32) (harg12 : arg12.IsWhole) (x0 : Vec Ideal S8x500x512 .f32) (x1 : Vec Ideal S128x512 .f32) (x2 : Vec Ideal S1x128 .f32) (x3 : Vec Ideal S128x512 .f32) (x4 x5 : Vec Ideal S1x128 .f32) (x6 : Vec Ideal S1x1 .f32) (x7 : Vec Ideal S2x512 .f32) (x8 : Vec Ideal S1x2 .f32) :
    ∀ p ∈ (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8).2.2.1, ∀ x : p.1.shape.Idx,
      p.2 x = blockScores x0 x1 x2 x3 x4 x5 x6 (p.1.emb x) := by
  unfold kernelRun0_A
  dsimp only
  intro p hp x
  have h := pieces_scores _ _ _ _ _ _ _ _ _ _ _ _ _ _ _ _ _ _ _ _ _ _ _ _ _ _ _ _ _ _ _ _ _ _ _ _ _ _ _ _ _ p hp x
  simp only [View.readAt_eq_ld, harg1.read_unread, harg2.read_unread, harg3.read_unread, harg4.read_unread, harg5.read_unread, harg6.read_unread, harg7.read_unread, harg8.read_unread, harg9.read_unread, View.ld_unit_zero (S := S128x512) hz2, View.ld_unit_zero (S := S1x128) hz2, View.ld_unit_zero (S := S1x1) hz2, View.ld_unit_zero (S := S2x512) hz2, View.ld_unit_zero (S := S1x2) hz2] at h
  exact h

/-- The logits' staging buffer after the body: the pieces cover it and each is a slice of one function. -/
theorem out_logits (c : Dev nD) (i : grid0.Coords) (arg1 : Memref sig .tc .vmem S8x500x512 .f32) (harg1 : arg1.IsWhole) (arg2 : Memref sig .tc .vmem S128x512 .f32) (harg2 : arg2.IsWhole) (arg3 : Memref sig .tc .vmem S1x128 .f32) (harg3 : arg3.IsWhole) (arg4 : Memref sig .tc .vmem S128x512 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x1 .f32) (harg7 : arg7.IsWhole) (arg8 : Memref sig .tc .vmem S2x512 .f32) (harg8 : arg8.IsWhole) (arg9 : Memref sig .tc .vmem S1x2 .f32) (harg9 : arg9.IsWhole) (arg10 : Memref sig .tc .vmem S8x1x2 .f32) (harg10 : arg10.IsWhole) (arg11 : Memref sig .tc .vmem S8x1x500 .f32) (harg11 : arg11.IsWhole) (arg12 : Memref sig .tc .vmem S8x1x500 .f32) (harg12 : arg12.IsWhole) (x0 : Vec Ideal S8x500x512 .f32) (x1 : Vec Ideal S128x512 .f32) (x2 : Vec Ideal S1x128 .f32) (x3 : Vec Ideal S128x512 .f32) (x4 x5 : Vec Ideal S1x128 .f32) (x6 : Vec Ideal S1x1 .f32) (x7 : Vec Ideal S2x512 .f32) (x8 : Vec Ideal S1x2 .f32) :
    out0_A_9 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 = blockLogits x0 x1 x2 x3 x4 x5 x6 x7 x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8)]
  funext y
  exact View.canon_apply_of_pieces _ _ (run_pieces_logits c i arg1 harg1 arg2 harg2 arg3 harg3 arg4 harg4 arg5 harg5 arg6 harg6 arg7 harg7 arg8 harg8 arg9 harg9 arg10 harg10 arg11 harg11 arg12 harg12 x0 x1 x2 x3 x4 x5 x6 x7 x8) y (cover0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 y)

theorem out_weights (c : Dev nD) (i : grid0.Coords) (arg1 : Memref sig .tc .vmem S8x500x512 .f32) (harg1 : arg1.IsWhole) (arg2 : Memref sig .tc .vmem S128x512 .f32) (harg2 : arg2.IsWhole) (arg3 : Memref sig .tc .vmem S1x128 .f32) (harg3 : arg3.IsWhole) (arg4 : Memref sig .tc .vmem S128x512 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x1 .f32) (harg7 : arg7.IsWhole) (arg8 : Memref sig .tc .vmem S2x512 .f32) (harg8 : arg8.IsWhole) (arg9 : Memref sig .tc .vmem S1x2 .f32) (harg9 : arg9.IsWhole) (arg10 : Memref sig .tc .vmem S8x1x2 .f32) (harg10 : arg10.IsWhole) (arg11 : Memref sig .tc .vmem S8x1x500 .f32) (harg11 : arg11.IsWhole) (arg12 : Memref sig .tc .vmem S8x1x500 .f32) (harg12 : arg12.IsWhole) (x0 : Vec Ideal S8x500x512 .f32) (x1 : Vec Ideal S128x512 .f32) (x2 : Vec Ideal S1x128 .f32) (x3 : Vec Ideal S128x512 .f32) (x4 x5 : Vec Ideal S1x128 .f32) (x6 : Vec Ideal S1x1 .f32) (x7 : Vec Ideal S2x512 .f32) (x8 : Vec Ideal S1x2 .f32) :
    out0_A_10 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 = blockWeights x0 x1 x2 x3 x4 x5 x6 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8)]
  funext y
  exact View.canon_apply_of_pieces _ _ (run_pieces_weights c i arg1 harg1 arg2 harg2 arg3 harg3 arg4 harg4 arg5 harg5 arg6 harg6 arg7 harg7 arg8 harg8 arg9 harg9 arg10 harg10 arg11 harg11 arg12 harg12 x0 x1 x2 x3 x4 x5 x6 x7 x8) y (cover0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 y)

theorem out_scores (c : Dev nD) (i : grid0.Coords) (arg1 : Memref sig .tc .vmem S8x500x512 .f32) (harg1 : arg1.IsWhole) (arg2 : Memref sig .tc .vmem S128x512 .f32) (harg2 : arg2.IsWhole) (arg3 : Memref sig .tc .vmem S1x128 .f32) (harg3 : arg3.IsWhole) (arg4 : Memref sig .tc .vmem S128x512 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x1 .f32) (harg7 : arg7.IsWhole) (arg8 : Memref sig .tc .vmem S2x512 .f32) (harg8 : arg8.IsWhole) (arg9 : Memref sig .tc .vmem S1x2 .f32) (harg9 : arg9.IsWhole) (arg10 : Memref sig .tc .vmem S8x1x2 .f32) (harg10 : arg10.IsWhole) (arg11 : Memref sig .tc .vmem S8x1x500 .f32) (harg11 : arg11.IsWhole) (arg12 : Memref sig .tc .vmem S8x1x500 .f32) (harg12 : arg12.IsWhole) (x0 : Vec Ideal S8x500x512 .f32) (x1 : Vec Ideal S128x512 .f32) (x2 : Vec Ideal S1x128 .f32) (x3 : Vec Ideal S128x512 .f32) (x4 x5 : Vec Ideal S1x128 .f32) (x6 : Vec Ideal S1x1 .f32) (x7 : Vec Ideal S2x512 .f32) (x8 : Vec Ideal S1x2 .f32) :
    out0_A_11 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 = blockScores x0 x1 x2 x3 x4 x5 x6 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8)]
  funext y
  exact View.canon_apply_of_pieces _ _ (run_pieces_scores c i arg1 harg1 arg2 harg2 arg3 harg3 arg4 harg4 arg5 harg5 arg6 harg6 arg7 harg7 arg8 harg8 arg9 harg9 arg10 harg10 arg11 harg11 arg12 harg12 x0 x1 x2 x3 x4 x5 x6 x7 x8) y (cover0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 y)

/-! ## The blocks at a grid point, in terms of the arrays as launched -/

variable (m : (ℓ : Loc nD τ sig) → Buf (Elt Ideal) ℓ)

/-- The nine argument arrays as core `c` is launched with them. -/
abbrev a0 (c : Dev nD) : S256x500x512.Idx → EReal := m ((c : Thread nD τ).loc main_arg0)
abbrev a1 (c : Dev nD) : S128x512.Idx → EReal := m ((c : Thread nD τ).loc main_arg1)
abbrev a2 (c : Dev nD) : S128.Idx → EReal := m ((c : Thread nD τ).loc main_arg2)
abbrev a3 (c : Dev nD) : S128x512.Idx → EReal := m ((c : Thread nD τ).loc main_arg3)
abbrev a4 (c : Dev nD) : S128.Idx → EReal := m ((c : Thread nD τ).loc main_arg4)
abbrev a5 (c : Dev nD) : S1x128.Idx → EReal := m ((c : Thread nD τ).loc main_arg5)
abbrev a6 (c : Dev nD) : S1.Idx → EReal := m ((c : Thread nD τ).loc main_arg6)
abbrev a7 (c : Dev nD) : S2x512.Idx → EReal := m ((c : Thread nD τ).loc main_arg7)
abbrev a8 (c : Dev nD) : S2.Idx → EReal := m ((c : Thread nD τ).loc main_arg8)

/-- Bag `k` of the block at point `t` is bag `8t + k` of the batch: its scores are that bag's. -/
theorem scoreBlock_at (c : Dev nD) (t : Fin cfg0.N) (k : Fin 8) :
    blockScore (iblk m c 0 t) (iblk m c 1 t) (iblk m c 2 t) (iblk m c 3 t) (iblk m c 4 t) (iblk m c 5 t) (iblk m c 6 t) k
      = Cert.GatedPool.bagScore (a0 m c) (a1 m c) (a2 m c) (a3 m c) (a4 m c) (a5 m c) (a6 m c) ⟨8 * t.val + k.val, bag_lt t k⟩ := by
  unfold blockScore Cert.GatedPool.bagScore
  rw [blk1 m c t, blk3 m c t, blk5 m c t]
  simp only [blk0 m c t, blk2 m c t, blk4 m c t, blk6 m c t]

/-- The logits' block at point `t`, at a block index whose bag is `B` of the batch and class `C`. -/
theorem logitsBlock_at (c : Dev nD) (t : Fin cfg0.N) (y : S8x1x2.Idx) (B : Fin 256) (C : Fin 2)
    (hB : B.val = 8 * t.val + (y 0).val) (hC : C.val = (y 2).val) :
    blockLogits (iblk m c 0 t) (iblk m c 1 t) (iblk m c 2 t) (iblk m c 3 t) (iblk m c 4 t) (iblk m c 5 t) (iblk m c 6 t) (iblk m c 7 t) (iblk m c 8 t) y = Cert.GatedPool.logitArray (a0 m c) (a1 m c) (a2 m c) (a3 m c) (a4 m c) (a5 m c) (a6 m c) (a7 m c) (a8 m c) (ix2 B C) := by
  obtain ⟨k, u, e, rfl⟩ : ∃ (k : Fin 8) (u : Fin 1) (e : Fin 2), y = ix3 k u e := ⟨y 0, y 1, y 2, eq_ix3 y⟩
  obtain rfl : B = ⟨8 * t.val + k.val, bag_lt t k⟩ := Fin.ext hB
  obtain rfl : C = e := Fin.ext hC
  show Cert.GatedPool.logit (fun r q => (iblk m c 0 t : Vec Ideal S8x500x512 .f32) (ix3 k r q))
      (Cert.GatedPool.weight (blockScore (iblk m c 0 t) (iblk m c 1 t) (iblk m c 2 t) (iblk m c 3 t) (iblk m c 4 t) (iblk m c 5 t) (iblk m c 6 t) k))
      (fun e' q => (iblk m c 7 t : Vec Ideal S2x512 .f32) (ix2 e' q)) (fun e' => (iblk m c 8 t : Vec Ideal S1x2 .f32) (ix2 (0 : Fin 1) e')) C
    = Cert.GatedPool.logit (fun r q => a0 m c (ix3 (⟨8 * t.val + k.val, bag_lt t k⟩ : Fin 256) r q))
      (Cert.GatedPool.weight (Cert.GatedPool.bagScore (a0 m c) (a1 m c) (a2 m c) (a3 m c) (a4 m c) (a5 m c) (a6 m c) ⟨8 * t.val + k.val, bag_lt t k⟩))
      (fun e' q => a7 m c (ix2 e' q)) (fun e' => a8 m c (ix1 e')) C
  rw [scoreBlock_at m c t k, blk7 m c t]
  simp only [blk0 m c t, blk8 m c t]

/-- The weights' block at point `t`, at a block index whose bag is `B` and tile `T`. -/
theorem weightsBlock_at (c : Dev nD) (t : Fin cfg0.N) (y : S8x1x500.Idx) (B : Fin 256) (T : Fin 500)
    (hB : B.val = 8 * t.val + (y 0).val) (hT : T.val = (y 2).val) :
    blockWeights (iblk m c 0 t) (iblk m c 1 t) (iblk m c 2 t) (iblk m c 3 t) (iblk m c 4 t) (iblk m c 5 t) (iblk m c 6 t) y = Cert.GatedPool.weightArray (a0 m c) (a1 m c) (a2 m c) (a3 m c) (a4 m c) (a5 m c) (a6 m c) (ix2 B T) := by
  obtain ⟨k, u, e, rfl⟩ : ∃ (k : Fin 8) (u : Fin 1) (e : Fin 500), y = ix3 k u e := ⟨y 0, y 1, y 2, eq_ix3 y⟩
  obtain rfl : B = ⟨8 * t.val + k.val, bag_lt t k⟩ := Fin.ext hB
  obtain rfl : T = e := Fin.ext hT
  show Cert.GatedPool.weight (blockScore (iblk m c 0 t) (iblk m c 1 t) (iblk m c 2 t) (iblk m c 3 t) (iblk m c 4 t) (iblk m c 5 t) (iblk m c 6 t) k) T
    = Cert.GatedPool.weight (Cert.GatedPool.bagScore (a0 m c) (a1 m c) (a2 m c) (a3 m c) (a4 m c) (a5 m c) (a6 m c) ⟨8 * t.val + k.val, bag_lt t k⟩) T
  rw [scoreBlock_at m c t k]

/-- The scores' block at point `t`, against the array index `j` of the same bag and tile. -/
theorem scoresBlock_at (c : Dev nD) (t : Fin cfg0.N) (y : S8x1x500.Idx) (j : S256x1x500.Idx)
    (hB : (j 0).val = 8 * t.val + (y 0).val) (hT : (j 2).val = (y 2).val) :
    blockScores (iblk m c 0 t) (iblk m c 1 t) (iblk m c 2 t) (iblk m c 3 t) (iblk m c 4 t) (iblk m c 5 t) (iblk m c 6 t) y = Cert.GatedPool.scoreArray (a0 m c) (a1 m c) (a2 m c) (a3 m c) (a4 m c) (a5 m c) (a6 m c) j := by
  obtain ⟨k, u, e, rfl⟩ : ∃ (k : Fin 8) (u : Fin 1) (e : Fin 500), y = ix3 k u e := ⟨y 0, y 1, y 2, eq_ix3 y⟩
  obtain ⟨B, u', T, rfl⟩ : ∃ (B : Fin 256) (u' : Fin 1) (T : Fin 500), j = ix3 B u' T := ⟨j 0, j 1, j 2, eq_ix3 j⟩
  obtain rfl : B = ⟨8 * t.val + k.val, bag_lt t k⟩ := Fin.ext hB
  obtain rfl : T = e := Fin.ext hT
  show blockScore (iblk m c 0 t) (iblk m c 1 t) (iblk m c 2 t) (iblk m c 3 t) (iblk m c 4 t) (iblk m c 5 t) (iblk m c 6 t) k T
    = Cert.GatedPool.bagScore (a0 m c) (a1 m c) (a2 m c) (a3 m c) (a4 m c) (a5 m c) (a6 m c) ⟨8 * t.val + k.val, bag_lt t k⟩ T
  rw [scoreBlock_at m c t k]

/-! ## The three output arrays of the region after the run -/

/-- The logits as the region's `[256, 1, 2]` output: entry `(b, ·, c)` is class `c`'s logit of bag `b`. -/
def logits3 (c : Dev nD) : S256x1x2.Idx → EReal := fun j =>
  Cert.GatedPool.logitArray (a0 m c) (a1 m c) (a2 m c) (a3 m c) (a4 m c) (a5 m c) (a6 m c) (a7 m c) (a8 m c) (ix2 (⟨(j 0).val, (j 0).isLt⟩ : Fin 256) (⟨(j 2).val, (j 2).isLt⟩ : Fin 2))
/-- The weights as the region's `[256, 1, 500]` output. -/
def weights3 (c : Dev nD) : S256x1x500.Idx → EReal := fun j =>
  Cert.GatedPool.weightArray (a0 m c) (a1 m c) (a2 m c) (a3 m c) (a4 m c) (a5 m c) (a6 m c) (ix2 (⟨(j 0).val, (j 0).isLt⟩ : Fin 256) (⟨(j 2).val, (j 2).isLt⟩ : Fin 500))
/-- The scores: the region's third output is already the result's shape. -/
def scores3 (c : Dev nD) : S256x1x500.Idx → EReal := Cert.GatedPool.scoreArray (a0 m c) (a1 m c) (a2 m c) (a3 m c) (a4 m c) (a5 m c) (a6 m c)

/-- The printed index map of output window 9, decided over the grid: block `t` along the bags, block 0 on the other axes. -/
theorem idx9 : ∀ t : Fin cfg0.N, win0_9.index t (0 : Fin 3) = t.val ∧ win0_9.index t (1 : Fin 3) = 0 ∧ win0_9.index t (2 : Fin 3) = 0 :=
  (by decide +kernel : ∀ t : Fin grid0.N, _)

/-- What point `t` writes back to the logits' array is block `t` of one function of the array index. -/
theorem flushed9 (c : Dev nD) (t : Fin cfg0.N) :
    (dats m 0 c).flushed 9 t = ((cfg0.win 9).blk t).view.read (Elt Ideal) (logits3 m c) := by
  show (cfg0.win 9).cut (grid0.coords t) ((dats m 0 c).after 9 t) = _
  rw [after0_9]
  unfold outsAt0
  dsimp only
  rw [out_logits]
  obtain ⟨e0, e1, e2⟩ := idx9 t
  funext y
  show _ = logits3 m c (((cfg0.win 9).blk t).view.emb y)
  unfold logits3
  refine logitsBlock_at m c t y _ _ ?_ ?_
  · show win0_9.index t (0 : Fin 3) * 8 + 1 * (y 0).val = 8 * t.val + (y 0).val
    rw [e0]; omega
  · show win0_9.index t (2 : Fin 3) * 2 + 1 * (y 2).val = (y 2).val
    rw [e2]; omega

/-- An index of the array is in point `t`'s block iff each coordinate is in the block's range on its axis. -/
theorem mem_blk9 (t : Fin cfg0.N) (i : S256x1x2.Idx) :
    i ∈ ((cfg0.win 9).blk t).view.set ↔ ∀ a : Fin 3, win0_9.index t a * S8x1x2.size a ≤ (i a).val ∧ (i a).val < win0_9.index t a * S8x1x2.size a + S8x1x2.size a := by
  show i ∈ ((View.whole main_v4_0).slice (win0_9.rect t)).set ↔ _
  rw [View.set_slice_whole, Rect.mem_set_unit]
  exact Iff.rfl

/-- Every index of the array is in the block of the point its bag falls in: bag `b` is written at point `b / 8`. -/
theorem cover9 (i : S256x1x2.Idx) : ∃ t : Fin cfg0.N, (cfg0.win 9).flush t = true ∧ i ∈ ((cfg0.win 9).blk t).view.set := by
  have h0 : (i 0).val < 256 := (i 0).isLt
  have h1 : (i 1).val < 1 := (i 1).isLt
  have h2 : (i 2).val < 2 := (i 2).isLt
  have hN : cfg0.N = 32 := N_0
  have hlt : (i 0).val / 8 < cfg0.N := by rw [hN]; omega
  obtain ⟨e0, e1, e2⟩ := idx9 ⟨(i 0).val / 8, hlt⟩
  refine ⟨⟨(i 0).val / 8, hlt⟩, flush0_9 _, ?_⟩
  rw [mem_blk9]
  intro a
  match a with
  | ⟨0, _⟩ => show win0_9.index ⟨(i 0).val / 8, hlt⟩ (0 : Fin 3) * 8 ≤ (i 0).val ∧ (i 0).val < win0_9.index ⟨(i 0).val / 8, hlt⟩ (0 : Fin 3) * 8 + 8
              rw [e0]; dsimp only; omega
  | ⟨1, _⟩ => show win0_9.index ⟨(i 0).val / 8, hlt⟩ (1 : Fin 3) * 1 ≤ (i 1).val ∧ (i 1).val < win0_9.index ⟨(i 0).val / 8, hlt⟩ (1 : Fin 3) * 1 + 1
              rw [e1]; omega
  | ⟨2, _⟩ => show win0_9.index ⟨(i 0).val / 8, hlt⟩ (2 : Fin 3) * 2 ≤ (i 2).val ∧ (i 2).val < win0_9.index ⟨(i 0).val / 8, hlt⟩ (2 : Fin 3) * 2 + 2
              rw [e2]; omega

/-- So the array ends holding that function. -/
theorem final9 (c : Dev nD) : (dats m 0 c).arrAt 9 cfg0.N = logits3 m c :=
  (dats m 0 c).arrAt_eq_of_cover 9 (logits3 m c) (fun t _ => flushed9 m c t) cover9

/-- The printed index map of output window 10, decided over the grid: block `t` along the bags, block 0 on the other axes. -/
theorem idx10 : ∀ t : Fin cfg0.N, win0_10.index t (0 : Fin 3) = t.val ∧ win0_10.index t (1 : Fin 3) = 0 ∧ win0_10.index t (2 : Fin 3) = 0 :=
  (by decide +kernel : ∀ t : Fin grid0.N, _)

/-- What point `t` writes back to the weights' array is block `t` of one function of the array index. -/
theorem flushed10 (c : Dev nD) (t : Fin cfg0.N) :
    (dats m 0 c).flushed 10 t = ((cfg0.win 10).blk t).view.read (Elt Ideal) (weights3 m c) := by
  show (cfg0.win 10).cut (grid0.coords t) ((dats m 0 c).after 10 t) = _
  rw [after0_10]
  unfold outsAt0
  dsimp only
  rw [out_weights]
  obtain ⟨e0, e1, e2⟩ := idx10 t
  funext y
  show _ = weights3 m c (((cfg0.win 10).blk t).view.emb y)
  unfold weights3
  refine weightsBlock_at m c t y _ _ ?_ ?_
  · show win0_10.index t (0 : Fin 3) * 8 + 1 * (y 0).val = 8 * t.val + (y 0).val
    rw [e0]; omega
  · show win0_10.index t (2 : Fin 3) * 500 + 1 * (y 2).val = (y 2).val
    rw [e2]; omega

/-- An index of the array is in point `t`'s block iff each coordinate is in the block's range on its axis. -/
theorem mem_blk10 (t : Fin cfg0.N) (i : S256x1x500.Idx) :
    i ∈ ((cfg0.win 10).blk t).view.set ↔ ∀ a : Fin 3, win0_10.index t a * S8x1x500.size a ≤ (i a).val ∧ (i a).val < win0_10.index t a * S8x1x500.size a + S8x1x500.size a := by
  show i ∈ ((View.whole main_v4_1).slice (win0_10.rect t)).set ↔ _
  rw [View.set_slice_whole, Rect.mem_set_unit]
  exact Iff.rfl

/-- Every index of the array is in the block of the point its bag falls in: bag `b` is written at point `b / 8`. -/
theorem cover10 (i : S256x1x500.Idx) : ∃ t : Fin cfg0.N, (cfg0.win 10).flush t = true ∧ i ∈ ((cfg0.win 10).blk t).view.set := by
  have h0 : (i 0).val < 256 := (i 0).isLt
  have h1 : (i 1).val < 1 := (i 1).isLt
  have h2 : (i 2).val < 500 := (i 2).isLt
  have hN : cfg0.N = 32 := N_0
  have hlt : (i 0).val / 8 < cfg0.N := by rw [hN]; omega
  obtain ⟨e0, e1, e2⟩ := idx10 ⟨(i 0).val / 8, hlt⟩
  refine ⟨⟨(i 0).val / 8, hlt⟩, flush0_10 _, ?_⟩
  rw [mem_blk10]
  intro a
  match a with
  | ⟨0, _⟩ => show win0_10.index ⟨(i 0).val / 8, hlt⟩ (0 : Fin 3) * 8 ≤ (i 0).val ∧ (i 0).val < win0_10.index ⟨(i 0).val / 8, hlt⟩ (0 : Fin 3) * 8 + 8
              rw [e0]; dsimp only; omega
  | ⟨1, _⟩ => show win0_10.index ⟨(i 0).val / 8, hlt⟩ (1 : Fin 3) * 1 ≤ (i 1).val ∧ (i 1).val < win0_10.index ⟨(i 0).val / 8, hlt⟩ (1 : Fin 3) * 1 + 1
              rw [e1]; omega
  | ⟨2, _⟩ => show win0_10.index ⟨(i 0).val / 8, hlt⟩ (2 : Fin 3) * 500 ≤ (i 2).val ∧ (i 2).val < win0_10.index ⟨(i 0).val / 8, hlt⟩ (2 : Fin 3) * 500 + 500
              rw [e2]; omega

/-- So the array ends holding that function. -/
theorem final10 (c : Dev nD) : (dats m 0 c).arrAt 10 cfg0.N = weights3 m c :=
  (dats m 0 c).arrAt_eq_of_cover 10 (weights3 m c) (fun t _ => flushed10 m c t) cover10

/-- The printed index map of output window 11, decided over the grid: block `t` along the bags, block 0 on the other axes. -/
theorem idx11 : ∀ t : Fin cfg0.N, win0_11.index t (0 : Fin 3) = t.val ∧ win0_11.index t (1 : Fin 3) = 0 ∧ win0_11.index t (2 : Fin 3) = 0 :=
  (by decide +kernel : ∀ t : Fin grid0.N, _)

/-- What point `t` writes back to the scores' array is block `t` of one function of the array index. -/
theorem flushed11 (c : Dev nD) (t : Fin cfg0.N) :
    (dats m 0 c).flushed 11 t = ((cfg0.win 11).blk t).view.read (Elt Ideal) (scores3 m c) := by
  show (cfg0.win 11).cut (grid0.coords t) ((dats m 0 c).after 11 t) = _
  rw [after0_11]
  unfold outsAt0
  dsimp only
  rw [out_scores]
  obtain ⟨e0, e1, e2⟩ := idx11 t
  funext y
  show _ = scores3 m c (((cfg0.win 11).blk t).view.emb y)
  unfold scores3
  refine scoresBlock_at m c t y _ ?_ ?_
  · show win0_11.index t (0 : Fin 3) * 8 + 1 * (y 0).val = 8 * t.val + (y 0).val
    rw [e0]; omega
  · show win0_11.index t (2 : Fin 3) * 500 + 1 * (y 2).val = (y 2).val
    rw [e2]; omega

/-- An index of the array is in point `t`'s block iff each coordinate is in the block's range on its axis. -/
theorem mem_blk11 (t : Fin cfg0.N) (i : S256x1x500.Idx) :
    i ∈ ((cfg0.win 11).blk t).view.set ↔ ∀ a : Fin 3, win0_11.index t a * S8x1x500.size a ≤ (i a).val ∧ (i a).val < win0_11.index t a * S8x1x500.size a + S8x1x500.size a := by
  show i ∈ ((View.whole main_v4_2).slice (win0_11.rect t)).set ↔ _
  rw [View.set_slice_whole, Rect.mem_set_unit]
  exact Iff.rfl

/-- Every index of the array is in the block of the point its bag falls in: bag `b` is written at point `b / 8`. -/
theorem cover11 (i : S256x1x500.Idx) : ∃ t : Fin cfg0.N, (cfg0.win 11).flush t = true ∧ i ∈ ((cfg0.win 11).blk t).view.set := by
  have h0 : (i 0).val < 256 := (i 0).isLt
  have h1 : (i 1).val < 1 := (i 1).isLt
  have h2 : (i 2).val < 500 := (i 2).isLt
  have hN : cfg0.N = 32 := N_0
  have hlt : (i 0).val / 8 < cfg0.N := by rw [hN]; omega
  obtain ⟨e0, e1, e2⟩ := idx11 ⟨(i 0).val / 8, hlt⟩
  refine ⟨⟨(i 0).val / 8, hlt⟩, flush0_11 _, ?_⟩
  rw [mem_blk11]
  intro a
  match a with
  | ⟨0, _⟩ => show win0_11.index ⟨(i 0).val / 8, hlt⟩ (0 : Fin 3) * 8 ≤ (i 0).val ∧ (i 0).val < win0_11.index ⟨(i 0).val / 8, hlt⟩ (0 : Fin 3) * 8 + 8
              rw [e0]; dsimp only; omega
  | ⟨1, _⟩ => show win0_11.index ⟨(i 0).val / 8, hlt⟩ (1 : Fin 3) * 1 ≤ (i 1).val ∧ (i 1).val < win0_11.index ⟨(i 0).val / 8, hlt⟩ (1 : Fin 3) * 1 + 1
              rw [e1]; omega
  | ⟨2, _⟩ => show win0_11.index ⟨(i 0).val / 8, hlt⟩ (2 : Fin 3) * 500 ≤ (i 2).val ∧ (i 2).val < win0_11.index ⟨(i 0).val / 8, hlt⟩ (2 : Fin 3) * 500 + 500
              rw [e2]; omega

/-- So the array ends holding that function. -/
theorem final11 (c : Dev nD) : (dats m 0 c).arrAt 11 cfg0.N = scores3 m c :=
  (dats m 0 c).arrAt_eq_of_cover 11 (scores3 m c) (fun t _ => flushed11 m c t) cover11

/-! ## The run, read at the three results -/

/-- The reshape of the logits' `[256, 1, 2]` array to `[256, 2]` is the logits as a function of bag and class. -/
theorem dropUnit_logits (c : Dev nD) : Tail.dropUnit (logits3 m c) = Cert.GatedPool.logitArray (a0 m c) (a1 m c) (a2 m c) (a3 m c) (a4 m c) (a5 m c) (a6 m c) (a7 m c) (a8 m c) := by
  funext j
  obtain ⟨b, e, rfl⟩ : ∃ (b : Fin 256) (e : Fin 2), j = ix2 b e := ⟨j 0, j 1, eq_ix2 j⟩
  rfl

/-- Likewise the weights' `[256, 1, 500]` array reshaped to `[256, 500]`. -/
theorem dropUnit_weights (c : Dev nD) : Tail.dropUnit (weights3 m c) = Cert.GatedPool.weightArray (a0 m c) (a1 m c) (a2 m c) (a3 m c) (a4 m c) (a5 m c) (a6 m c) := by
  funext j
  obtain ⟨b, e, rfl⟩ : ∃ (b : Fin 256) (e : Fin 500), j = ix2 b e := ⟨j 0, j 1, eq_ix2 j⟩
  rfl

/-- Every weakly fair execution of the kernel's program ends with its three results at the class logits, the softmax
    weights and the scores of the 256 bags, as functions of the arguments as launched, and the arguments unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = Cert.GatedPool.logitArray (a0 m c) (a1 m c) (a2 m c) (a3 m c) (a4 m c) (a5 m c) (a6 m c) (a7 m c) (a8 m c)
      ∧ r.2.mem ((c.tc : Thread nD τ).loc main_v6) = Cert.GatedPool.weightArray (a0 m c) (a1 m c) (a2 m c) (a3 m c) (a4 m c) (a5 m c) (a6 m c)
      ∧ r.2.mem ((c.tc : Thread nD τ).loc main_v4_2) = Cert.GatedPool.scoreArray (a0 m c) (a1 m c) (a2 m c) (a3 m c) (a4 m c) (a5 m c) (a6 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (dropUnit_logits m c), (h c).2.1.trans (dropUnit_weights m c),
      (h c).2.2.1, (h c).2.2.2⟩)
    (Tail.run_of_finals m ρ (logits3 m) (weights3 m) (scores3 m) (final9 m) (final10 m) (final11 m))

end Cert.KernelIdeal.PoolValue

end
-- ==== Proof.RefRead.lean ====
/-
  The reference program read as the gated-attention pooling of the specification.

  Each stage of the reference is read at an index given by literal coordinates and identified, layer by
  layer, with the scalar functions of the specification: the two gate pre-activations, the gated
  channel, the tile's score, the bag's largest score, the softmax weight, the total weight, the pooled
  features and the class logits. The three results are then the specification's three arrays.
-/
import proofs.«139174_j29051158790279_2_alg».proof.Proof.Gen.ReferenceIdeal.Read
import proofs.«139174_j29051158790279_2_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Read Idealize.ShloMosaic Idealize.ShloMosaic.ValueIdx

variable (x0 : (⟨S256x500x512, .f32⟩ : BufTy).Contents (Elt Ideal)) (x1 : (⟨S128x512, .f32⟩ : BufTy).Contents (Elt Ideal))
  (x2 : (⟨S128, .f32⟩ : BufTy).Contents (Elt Ideal)) (x3 : (⟨S128x512, .f32⟩ : BufTy).Contents (Elt Ideal))
  (x4 : (⟨S128, .f32⟩ : BufTy).Contents (Elt Ideal)) (x5 : (⟨S1x128, .f32⟩ : BufTy).Contents (Elt Ideal))
  (x6 : (⟨S1, .f32⟩ : BufTy).Contents (Elt Ideal)) (x7 : (⟨S2x512, .f32⟩ : BufTy).Contents (Elt Ideal))
  (x8 : (⟨S2, .f32⟩ : BufTy).Contents (Elt Ideal))

/-! ## The three literal words -/

/-- The f32 word of one denotes one. -/
theorem one_word : Ideal.ofBits .f32 0x3F800000#32 = 1 := by
  simp [Ideal.ofBits, Ideal.ieee]
  rw [← EReal.coe_mul, ← EReal.coe_one]
  congr 1
  norm_num

/-- The f32 word of minus infinity denotes the least extended real. -/
theorem ninf_word : Ideal.ofBits .f32 0xFF800000#32 = ⊥ := by
  simp [Ideal.ofBits, Ideal.ieee]

/-! ## The gate -/

/-- The first projection's pre-activation at tile `(b, t)`, channel `l`. -/
theorem v3_at (b : Fin 256) (t : Fin 500) (l : Fin 128) :
    val_main_v3 (F := Ideal) x0 x1 x2 (ix3 b t l) = (∑ m : Fin 512, x0 (ix3 b t m) * x1 (ix2 l m)) + x2 (ix1 l) := by
  have e0 : ∀ k : Fin 512, lidx_main_v0 (ix3 b t l) k = ix3 b t k := fun k => funext fun a => by
    match a with | ⟨0, _⟩ => rfl | ⟨1, _⟩ => rfl | ⟨2, _⟩ => rfl
  have e1 : ∀ k : Fin 512, ridx_main_v0 (ix3 b t l) k = ix2 l k := fun k => funext fun a => by
    match a with | ⟨0, _⟩ => rfl | ⟨1, _⟩ => rfl
  have e2 : idx_main_v1 (idx_main_v2 (ix3 b t l)) = ix1 l := funext fun a => by
    match a with | ⟨0, _⟩ => rfl
  rw [val_main_v3_apply, val_main_v0_apply, val_main_v2_apply, val_main_v1_apply, e2]
  simp only [e0, e1, Ideal.addf_def]

/-- The second projection's pre-activation at tile `(b, t)`, channel `l`. -/
theorem v8_at (b : Fin 256) (t : Fin 500) (l : Fin 128) :
    val_main_v8 (F := Ideal) x0 x3 x4 (ix3 b t l) = (∑ m : Fin 512, x0 (ix3 b t m) * x3 (ix2 l m)) + x4 (ix1 l) := by
  have e0 : ∀ k : Fin 512, lidx_main_v5 (ix3 b t l) k = ix3 b t k := fun k => funext fun a => by
    match a with | ⟨0, _⟩ => rfl | ⟨1, _⟩ => rfl | ⟨2, _⟩ => rfl
  have e1 : ∀ k : Fin 512, ridx_main_v5 (ix3 b t l) k = ix2 l k := fun k => funext fun a => by
    match a with | ⟨0, _⟩ => rfl | ⟨1, _⟩ => rfl
  have e2 : idx_main_v6 (idx_main_v7 (ix3 b t l)) = ix1 l := funext fun a => by
    match a with | ⟨0, _⟩ => rfl
  rw [val_main_v8_apply, val_main_v5_apply, val_main_v7_apply, val_main_v6_apply, e2]
  simp only [e0, e1, Ideal.addf_def]

/-- The logistic factor: the reference spells it `1 / (1 + exp (-u))` with the word of one. -/
theorem v14_at (i : S256x500x128.Idx) :
    val_main_v14 (F := Ideal) x0 x3 x4 i = Ideal.logistic (val_main_v8 (F := Ideal) x0 x3 x4 i) := by
  rw [val_main_v14_apply, val_main_v13_apply, val_main_cst_0_apply, val_main_v12_apply, val_main_v11_apply,
    val_main_cst_apply, val_main_v10_apply, val_main_v9_apply]
  simp only [Ideal.ofBits_def, one_word, Ideal.hostDivf_def, Ideal.addf_def, Ideal.hostUnary_exp_def, Ideal.hostNegf_def,
    Ideal.negf_def]
  rfl

/-- The gated channel `l` of tile `(b, t)`. -/
theorem v15_at (b : Fin 256) (t : Fin 500) (l : Fin 128) :
    val_main_v15 (F := Ideal) x0 x1 x2 x3 x4 (ix3 b t l)
      = Cert.GatedPool.gate (fun t m => x0 (ix3 b t m)) (fun l m => x1 (ix2 l m)) (fun l => x2 (ix1 l))
          (fun l m => x3 (ix2 l m)) (fun l => x4 (ix1 l)) t l := by
  rw [val_main_v15_apply, val_main_v4_apply, v14_at, v3_at, v8_at]
  simp only [Ideal.mulf_def, Ideal.hostUnary_tanh_def]
  rfl

/-! ## The score -/

/-- The score of tile `t` of bag `b`, before the two tile axes are exchanged. -/
theorem v19_at (b : Fin 256) (t : Fin 500) (u : Fin 1) :
    val_main_v19 (F := Ideal) x0 x1 x2 x3 x4 x5 x6 (ix3 b t u) = Cert.GatedPool.bagScore x0 x1 x2 x3 x4 x5 x6 b t := by
  obtain rfl : u = 0 := Subsingleton.elim _ _
  have e0 : ∀ k : Fin 128, lidx_main_v16 (ix3 b t (0 : Fin 1)) k = ix3 b t k := fun k => funext fun a => by
    match a with | ⟨0, _⟩ => rfl | ⟨1, _⟩ => rfl | ⟨2, _⟩ => rfl
  have e1 : ∀ k : Fin 128, ridx_main_v16 (ix3 b t (0 : Fin 1)) k = ix2 (0 : Fin 1) k := fun k => funext fun a => by
    match a with | ⟨0, _⟩ => rfl | ⟨1, _⟩ => rfl
  have e2 : idx_main_v17 (idx_main_v18 (ix3 b t (0 : Fin 1))) = ix1 (0 : Fin 1) := funext fun a => by
    match a with | ⟨0, _⟩ => rfl
  rw [val_main_v19_apply, val_main_v16_apply, val_main_v18_apply, val_main_v17_apply, e2]
  simp only [e0, e1, v15_at, Ideal.addf_def]
  rfl

/-- The score of tile `t` of bag `b` in the `[256, 1, 500]` array. -/
theorem v20_at (b : Fin 256) (u : Fin 1) (t : Fin 500) :
    val_main_v20 (F := Ideal) x0 x1 x2 x3 x4 x5 x6 (ix3 b u t) = Cert.GatedPool.bagScore x0 x1 x2 x3 x4 x5 x6 b t := by
  have e : idx_main_v20 (ix3 b u t) = ix3 b t u := funext fun a => by
    match a with | ⟨0, _⟩ => rfl | ⟨1, _⟩ => rfl | ⟨2, _⟩ => rfl
  rw [val_main_v20_apply, e, v19_at]

/-- The reference's score array is the specification's. -/
theorem ref_score :
    val_main_v20 (F := Ideal) x0 x1 x2 x3 x4 x5 x6 = Cert.GatedPool.scoreArray x0 x1 x2 x3 x4 x5 x6 := by
  funext j
  obtain ⟨b, u, t, rfl⟩ : ∃ (b : Fin 256) (u : Fin 1) (t : Fin 500), j = ix3 b u t := ⟨j 0, j 1, j 2, eq_ix3 j⟩
  exact v20_at x0 x1 x2 x3 x4 x5 x6 b u t

/-! ## The peak and the softmax weight -/

/-- The fold of the maximum over the tile axis is the peak of the bag's scores. -/
theorem v21_at (b : Fin 256) (u : Fin 1) :
    val_main_v21 (F := Ideal) x0 x1 x2 x3 x4 x5 x6 (ix2 b u)
      = Cert.GatedPool.peak (Cert.GatedPool.bagScore x0 x1 x2 x3 x4 x5 x6 b) := by
  have h : S256x1x500.Reduces [2] S256x1 := by decide
  unfold val_main_v21
  refine (Host.reduce_eq_fold_single FloatOps.maximumf _ _ _ h _ (ix2 b u)).trans ?_
  have e : (val_main_v20 (F := Ideal) x0 x1 x2 x3 x4 x5 x6 ∘ h.lift (ix2 b u))
      = Cert.GatedPool.bagScore x0 x1 x2 x3 x4 x5 x6 b := by
    refine funext fun (k : Fin 500) => ?_
    have ek : h.lift (ix2 b u) k = ix3 b u k := funext fun a => Fin.ext (by
      match a with | ⟨0, _⟩ => rfl | ⟨1, _⟩ => rfl | ⟨2, _⟩ => rfl)
    exact (congrArg (val_main_v20 (F := Ideal) x0 x1 x2 x3 x4 x5 x6) ek).trans (v20_at x0 x1 x2 x3 x4 x5 x6 b u k)
  rw [e]
  rfl

/-- Taking the maximum with the word of minus infinity once more changes nothing. -/
theorem v23_at (b : Fin 256) (u : Fin 1) :
    val_main_v23 (F := Ideal) x0 x1 x2 x3 x4 x5 x6 (ix2 b u)
      = Cert.GatedPool.peak (Cert.GatedPool.bagScore x0 x1 x2 x3 x4 x5 x6 b) := by
  rw [val_main_v23_apply, val_main_v22_apply, val_main_cst_2_apply, v21_at]
  simp only [Ideal.ofBits_def, ninf_word, Ideal.maximumf_def]
  exact max_bot_left _

/-- The exponential of a score less the peak. -/
theorem v27_at (b : Fin 256) (u : Fin 1) (t : Fin 500) :
    val_main_v27 (F := Ideal) x0 x1 x2 x3 x4 x5 x6 (ix3 b u t)
      = Ideal.exp (Cert.GatedPool.bagScore x0 x1 x2 x3 x4 x5 x6 b t
          - Cert.GatedPool.peak (Cert.GatedPool.bagScore x0 x1 x2 x3 x4 x5 x6 b)) := by
  have e : idx_main_v24 (idx_main_v25 (ix3 b u t)) = ix2 b (0 : Fin 1) := funext fun a => by
    match a with | ⟨0, _⟩ => rfl | ⟨1, _⟩ => rfl
  rw [val_main_v27_apply, val_main_v26_apply, val_main_v25_apply, val_main_v24_apply, e, v23_at, v20_at]
  simp only [Ideal.hostUnary_exp_def, Ideal.subf_def]

/-- The softmax denominator of bag `b`. -/
theorem v28_at (b : Fin 256) (u : Fin 1) :
    val_main_v28 (F := Ideal) x0 x1 x2 x3 x4 x5 x6 (ix2 b u)
      = ∑ k : Fin 500, Ideal.exp (Cert.GatedPool.bagScore x0 x1 x2 x3 x4 x5 x6 b k
          - Cert.GatedPool.peak (Cert.GatedPool.bagScore x0 x1 x2 x3 x4 x5 x6 b)) := by
  have e : ∀ k : Fin 500, idx_main_v28 (ix2 b u) k = ix3 b u k := fun k => funext fun a => by
    match a with | ⟨0, _⟩ => rfl | ⟨1, _⟩ => rfl | ⟨2, _⟩ => rfl
  rw [val_main_v28_apply, val_main_cst_3_apply]
  simp only [e, v27_at, Ideal.ofBits_def, Ideal.ofBits_zero_f32, zero_add]

/-- The softmax weight of tile `t` of bag `b`. -/
theorem v31_at (b : Fin 256) (u : Fin 1) (t : Fin 500) :
    val_main_v31 (F := Ideal) x0 x1 x2 x3 x4 x5 x6 (ix3 b u t)
      = Cert.GatedPool.weight (Cert.GatedPool.bagScore x0 x1 x2 x3 x4 x5 x6 b) t := by
  have e : idx_main_v29 (idx_main_v30 (ix3 b u t)) = ix2 b (0 : Fin 1) := funext fun a => by
    match a with | ⟨0, _⟩ => rfl | ⟨1, _⟩ => rfl
  rw [val_main_v31_apply, val_main_v30_apply, val_main_v29_apply, e, v28_at, v27_at]
  simp only [Ideal.hostDivf_def]
  rfl

/-- The reference's weight array is the specification's: the `[256, 1, 500]` weights viewed as `[256, 500]` read
    row-major position `b · 500 + t` at `(b, 0, t)`. -/
theorem ref_weight :
    val_main_v43 (F := Ideal) x0 x1 x2 x3 x4 x5 x6 = Cert.GatedPool.weightArray x0 x1 x2 x3 x4 x5 x6 := by
  funext j
  obtain ⟨b, t, rfl⟩ : ∃ (b : Fin 256) (t : Fin 500), j = ix2 b t := ⟨j 0, j 1, eq_ix2 j⟩
  have e : idx_main_v43 (ix2 b t) = ix3 b (0 : Fin 1) t := funext fun a => Fin.ext (by
    have hb := b.isLt
    have ht := t.isLt
    match a with
    | ⟨0, _⟩ => show (b.val * 500 + t.val) / 500 = b.val; omega
    | ⟨1, _⟩ => rfl
    | ⟨2, _⟩ => show (b.val * 500 + t.val) % 500 = t.val; omega)
  rw [val_main_v43_apply, e, v31_at]
  rfl

/-! ## The total weight, the pooled features and the logits -/

/-- The total weight of bag `b`: the sum over the unit axis and the tile axis of row `b` is the sum over
    the tiles, each index of the row being `(b, 0, t)` for its own tile coordinate `t`. -/
theorem v34_at (b : Fin 256) :
    val_main_v34 (F := Ideal) x0 x1 x2 x3 x4 x5 x6 (ix1 b)
      = ∑ t : Fin 500, Cert.GatedPool.weight (Cert.GatedPool.bagScore x0 x1 x2 x3 x4 x5 x6 b) t := by
  have hd : ∀ i : S256x1x500.Idx, ((Facts₀.reducesTo_S256x1x500_S256_d1_2).drop i 0).val = (i 0).val :=
    fun i => Shape.ReducesTo.drop_apply_val_of_eq _ i 0 0
  unfold val_main_v34
  simp only [Host.reduceAdd, Ideal.hostReduceAdd_def]
  unfold Ideal.hostReduceAdd
  rw [val_main_cst_4_apply]
  simp only [Ideal.ofBits_def, Ideal.ofBits_zero_f32, zero_add]
  have hi : ∀ i : S256x1x500.Idx, (Facts₀.reducesTo_S256x1x500_S256_d1_2).drop i = ix1 b →
      i = ix3 b (0 : Fin 1) (i 2 : Fin 500) := fun i h => funext fun a => Fin.ext (by
    have h0 : (i 0).val = b.val := (hd i).symm.trans (congrArg (fun j : S256.Idx => (j 0).val) h)
    have h1 : (i 1).val < 1 := (i 1).isLt
    match a with
    | ⟨0, _⟩ => exact h0
    | ⟨1, _⟩ => show (i 1).val = 0; omega
    | ⟨2, _⟩ => rfl)
  refine Finset.sum_nbij' (fun i => (i 2 : Fin 500)) (fun t => ix3 b (0 : Fin 1) t) ?_ ?_ ?_ ?_ ?_
  · intro i _; exact Finset.mem_univ _
  · intro t _
    refine Finset.mem_filter.2 ⟨Finset.mem_univ _, funext fun a => Fin.ext ?_⟩
    match a with
    | ⟨0, _⟩ => exact hd _
  · intro i h; exact (hi i (Finset.mem_filter.1 h).2).symm
  · intro t _; rfl
  · intro i h
    have e := hi i (Finset.mem_filter.1 h).2
    exact (congrArg (val_main_v31 (F := Ideal) x0 x1 x2 x3 x4 x5 x6) e).trans (v31_at x0 x1 x2 x3 x4 x5 x6 b 0 (i 2))

/-- The pooled feature `m` of bag `b`: the weighted sum of the tiles. -/
theorem v33_at (b : Fin 256) (m : Fin 512) :
    val_main_v33 (F := Ideal) x0 x1 x2 x3 x4 x5 x6 (ix2 b m)
      = ∑ t : Fin 500, Cert.GatedPool.weight (Cert.GatedPool.bagScore x0 x1 x2 x3 x4 x5 x6 b) t * x0 (ix3 b t m) := by
  have e : idx_main_v33 (ix2 b m) = ix3 b (0 : Fin 1) m := funext fun a => Fin.ext (by
    have hb := b.isLt
    have hm := m.isLt
    match a with
    | ⟨0, _⟩ => show (b.val * 512 + m.val) / 512 = b.val; omega
    | ⟨1, _⟩ => rfl
    | ⟨2, _⟩ => show (b.val * 512 + m.val) % 512 = m.val; omega)
  have e0 : ∀ k : Fin 500, lidx_main_v32 (ix3 b (0 : Fin 1) m) k = ix3 b (0 : Fin 1) k := fun k => funext fun a => by
    match a with | ⟨0, _⟩ => rfl | ⟨1, _⟩ => rfl | ⟨2, _⟩ => rfl
  have e1 : ∀ k : Fin 500, ridx_main_v32 (ix3 b (0 : Fin 1) m) k = ix3 b k m := fun k => funext fun a => by
    match a with | ⟨0, _⟩ => rfl | ⟨1, _⟩ => rfl | ⟨2, _⟩ => rfl
  rw [val_main_v33_apply, e, val_main_v32_apply]
  simp only [e0, e1, v31_at]

/-- The bias term of class `c` for bag `b`: the class bias times the total weight. -/
theorem v41_at (b : Fin 256) (c : Fin 2) :
    val_main_v41 (F := Ideal) x0 x1 x2 x3 x4 x5 x6 x8 (ix2 b c)
      = x8 (ix1 c) * ∑ t : Fin 500, Cert.GatedPool.weight (Cert.GatedPool.bagScore x0 x1 x2 x3 x4 x5 x6 b) t := by
  have e0 : idx_main_v37 (idx_main_v39 (ix2 b c)) = ix1 c := funext fun a => by
    match a with | ⟨0, _⟩ => rfl
  have e1 : idx_main_v38 (idx_main_v40 (ix2 b c)) = ix1 b := funext fun a => by
    match a with | ⟨0, _⟩ => rfl
  rw [val_main_v41_apply, val_main_v39_apply, val_main_v37_apply, e0, val_main_v40_apply, val_main_v38_apply, e1, v34_at]
  simp only [Ideal.mulf_def]

/-- The reference's logits are the specification's: the pooled features projected to the class, plus the bias term. -/
theorem ref_logit :
    val_main_v42 (F := Ideal) x0 x1 x2 x3 x4 x5 x6 x7 x8 = Cert.GatedPool.logitArray x0 x1 x2 x3 x4 x5 x6 x7 x8 := by
  funext j
  obtain ⟨b, c, rfl⟩ : ∃ (b : Fin 256) (c : Fin 2), j = ix2 b c := ⟨j 0, j 1, eq_ix2 j⟩
  have e0 : ∀ k : Fin 512, lidx_main_v36 (ix2 b c) k = ix2 b k := fun k => funext fun a => by
    match a with | ⟨0, _⟩ => rfl | ⟨1, _⟩ => rfl
  have e1 : ∀ k : Fin 512, idx_main_v35 (ridx_main_v36 (ix2 b c) k) = ix2 c k := fun k => funext fun a => by
    match a with | ⟨0, _⟩ => rfl | ⟨1, _⟩ => rfl
  rw [val_main_v42_apply, val_main_v36_apply, v41_at]
  simp only [val_main_v35_apply, e0, e1, v33_at, Ideal.addf_def]
  rfl

end Cert.ReferenceIdeal.RefValue

end
-- ==== Proof.lean ====
/-
  The certificate of the gated-attention pooling kernel against its jnp reference.

  Both programs compute, for each of 256 bags of 500 tiles, the tiles' attention scores (a projection of the
  product of a tanh gate and a logistic gate), their softmax weights, and two class logits from the weighted sum of
  the tiles plus the class bias times the total weight. At the ideal instance every matrix product is the plain sum
  over the contracted axis, every change of float format is the identity, the kernel's logistic function is the
  reference's 1 / (1 + exp (−x)), and the two softmaxes subtract the same row maximum: both programs are the same
  functions of the nine arguments, sum for sum and factor for factor (Proof/Spec.lean), so no algebraic law and no
  finiteness is needed. The kernel's side is read off its frame run: one grid point per block of 8 bags, one trip of
  the body's loop per bag (Proof/KernelValue.lean, over Proof/LoopPieces.lean, Proof/Payload.lean, Proof/Blocks.lean
  and Proof/Tail.lean); the reference's off its run, stage by stage (Proof/RefRead.lean). The ideal pass rewrote
  nothing in the kernel, so the kernel's idealization is its own text read at the ideal instance.
-/
import proofs.«139174_j29051158790279_2_alg».proof.Defs
import proofs.«139174_j29051158790279_2_alg».proof.Proof.Gen.Kernel
import proofs.«139174_j29051158790279_2_alg».proof.Proof.Gen.KernelIdeal
import proofs.«139174_j29051158790279_2_alg».proof.Proof.Gen.ReferenceIdeal
import proofs.«139174_j29051158790279_2_alg».proof.Proof.Gen.Pre_finite_inputs
import proofs.«139174_j29051158790279_2_alg».proof.Proof.Gen.ReferenceIdeal.Run
import proofs.«139174_j29051158790279_2_alg».proof.Proof.Gen.ReferenceIdeal.Read
import proofs.«139174_j29051158790279_2_alg».proof.Proof.PatchedKernelFrame
import proofs.«139174_j29051158790279_2_alg».proof.Proof.PatchedKernelIdealFrame
import proofs.«139174_j29051158790279_2_alg».proof.Proof.KernelValue
import proofs.«139174_j29051158790279_2_alg».proof.Proof.RefRead
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.GenP.frame m ρ

/-- So does its reading at the ideal instance. -/
theorem frame_kernelIdeal : Cert.frame_KernelIdeal := fun m ρ _ => Cert.KernelIdeal.GenP.frame m ρ

/-- The reference has no kernel: its frame is its run with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The ideal pass rewrote no operation. -/
theorem preserves : Cert.preserves_Kernel_KernelIdeal := trivial

/-- From memories agreeing on the nine arguments both programs end with the logits, the weights and the scores of
    the 256 bags as the same three functions of the arguments. -/
theorem algebraic : Cert.algebraic_KernelIdeal_ReferenceIdeal := by
  intro m ρ m' ρ' _ hagree
  refine ⟨fun c => Cert.GatedPool.logitArray (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.GatedPool.weightArray (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.GatedPool.scoreArray (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.PoolValue.run m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v42_eq, Cert.ReferenceIdeal.RefValue.ref_logit,
      (hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]
  · rw [Cert.ReferenceIdeal.Read.val_main_v43_eq, Cert.ReferenceIdeal.RefValue.ref_weight,
      (hagree c).1, (hagree c).2.1, (hagree c).2.2.1, (hagree c).2.2.2.1, (hagree c).2.2.2.2.1, (hagree c).2.2.2.2.2.1,
      (hagree c).2.2.2.2.2.2.1]
  · rw [Cert.ReferenceIdeal.Read.val_main_v20_eq, Cert.ReferenceIdeal.RefValue.ref_score,
      (hagree c).1, (hagree c).2.1, (hagree c).2.2.1, (hagree c).2.2.2.1, (hagree c).2.2.2.2.1, (hagree c).2.2.2.2.2.1,
      (hagree c).2.2.2.2.2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
